-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x256x256 : Shape := ⟨4, ![4, 100, 256, 256]⟩
abbrev S4x20x256x256 : Shape := ⟨4, ![4, 20, 256, 256]⟩
abbrev S_ : Shape := ⟨0, ![]⟩

class Facts : Prop where
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  h_S_ : 0 < S_.numel
  bcast_S_S4x20x256x256 : S_.BroadcastsInDim S4x20x256x256 (![] : Fin 0 → Fin S4x20x256x256.rank)
  reducesTo_S4x20x256x256_S_d0_1_2_3 : S4x20x256x256.ReducesTo [0, 1, 2, 3] S_

variable [Facts]

def fn {F : FTy → Type} [FloatOps F] (main_arg0 : FVec F S4x100x256x256 .f32) (main_arg1 : FVec F S4x20x256x256 .f32) : IVec S_ 1 :=
  let main_v0 : FVec F S4x100x256x256 .f32 := Host.absf main_arg0
  let main_cst : FVec F S_ .f32 := constant S_ .f32 0x7F800000#32
  let main_v1 : FVec F S4x100x256x256 .f32 := broadcastInDim S4x100x256x256 ![] bcast_S_S4x100x256x256 main_cst
  let main_v2 : IVec S4x100x256x256 1 := cmpf .olt main_v0 main_v1
  let main_c : IVec S_ 1 := constantI S_ 1 1#1
  let main_v3 : IVec S_ 1 := (fun x v => Host.reduce IntOp.andi x v reducesTo_S4x100x256x256_S_d0_1_2_3 h_S_) main_v2 main_c
  let main_v4 : FVec F S4x20x256x256 .f32 := Host.absf main_arg1
  let main_cst_0 : FVec F S_ .f32 := constant S_ .f32 0x7F800000#32
  let main_v5 : FVec F S4x20x256x256 .f32 := broadcastInDim S4x20x256x256 ![] bcast_S_S4x20x256x256 main_cst_0
  let main_v6 : IVec S4x20x256x256 1 := cmpf .olt main_v4 main_v5
  let main_c_1 : IVec S_ 1 := constantI S_ 1 1#1
  let main_v7 : IVec S_ 1 := (fun x v => Host.reduce IntOp.andi x v reducesTo_S4x20x256x256_S_d0_1_2_3 h_S_) main_v6 main_c_1
  let main_v8 : IVec S_ 1 := andi main_v3 main_v7
  main_v8
-- ==== Kernel.lean ====
abbrev S4x100x256x256 : Shape := ⟨4, ![4, 100, 256, 256]⟩
abbrev S4x20x256x256 : Shape := ⟨4, ![4, 20, 256, 256]⟩
abbrev S4x100x65536 : Shape := ⟨3, ![4, 100, 65536]⟩
abbrev S4x20x65536 : Shape := ⟨3, ![4, 20, 65536]⟩
abbrev S4x100x20 : Shape := ⟨3, ![4, 100, 20]⟩
abbrev S1x100x4096 : Shape := ⟨3, ![1, 100, 4096]⟩
abbrev S1x20x4096 : Shape := ⟨3, ![1, 20, 4096]⟩
abbrev S1x100x20 : Shape := ⟨3, ![1, 100, 20]⟩
abbrev S100x20 : Shape := ⟨2, ![100, 20]⟩
abbrev S100x1 : Shape := ⟨2, ![100, 1]⟩
abbrev S20x1 : Shape := ⟨2, ![20, 1]⟩
abbrev S100x4096 : Shape := ⟨2, ![100, 4096]⟩
abbrev S20x4096 : Shape := ⟨2, ![20, 4096]⟩
abbrev S4096x20 : Shape := ⟨2, ![4096, 20]⟩
abbrev S100 : Shape := ⟨1, ![100]⟩
abbrev S20 : Shape := ⟨1, ![20]⟩
abbrev S1x20 : Shape := ⟨2, ![1, 20]⟩

abbrev nBuf : Space → Nat
  | .hbm => 5
  | .vmem => 10
  | .smem => 0
  | _ => 0

abbrev bufTy : (tb : Table) → Fin (tcTables nBuf tb) → BufTy
  | .hbm, ⟨0, _⟩ => ⟨S4x100x256x256, .f32⟩
  | .hbm, ⟨1, _⟩ => ⟨S4x20x256x256, .f32⟩
  | .hbm, ⟨2, _⟩ => ⟨S4x100x65536, .f32⟩
  | .hbm, ⟨3, _⟩ => ⟨S4x20x65536, .f32⟩
  | .hbm, ⟨4, _⟩ => ⟨S4x100x20, .f32⟩
  | .local _ .vmem, ⟨0, _⟩ => ⟨S1x100x4096, .f32⟩
  | .local _ .vmem, ⟨1, _⟩ => ⟨S1x100x4096, .f32⟩
  | .local _ .vmem, ⟨2, _⟩ => ⟨S1x20x4096, .f32⟩
  | .local _ .vmem, ⟨3, _⟩ => ⟨S1x20x4096, .f32⟩
  | .local _ .vmem, ⟨4, _⟩ => ⟨S1x100x20, .f32⟩
  | .local _ .vmem, ⟨5, _⟩ => ⟨S1x100x20, .f32⟩
  | .local _ .vmem, ⟨6, _⟩ => ⟨S100x20, .f32⟩
  | .local _ .vmem, ⟨7, _⟩ => ⟨S100x20, .f32⟩
  | .local _ .vmem, ⟨8, _⟩ => ⟨S100x1, .f32⟩
  | .local _ .vmem, ⟨9, _⟩ => ⟨S20x1, .f32⟩
  | _, _ => ⟨S4x100x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v88 : BitVec 1 := Scalar.cmpi .eq arg1 c15_i32
  let v89 : BitVec 32 := Scalar.extui v88
  let c0_i32_36 : BitVec 32 := 0#32
  let v90 : BitVec 1 := Scalar.cmpi .ne v89 c0_i32_36
  v90

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x256x256_S4x100x65536 : S4x100x256x256.ShapeCasts S4x100x65536
  shapeCasts_S4x20x256x256_S4x20x65536 : S4x20x256x256.ShapeCasts S4x20x65536
  inb_S100x20_S100x20_0_0 : ∀ a, (![0, 0] : Fin 2 → Nat) a + S100x20.size a ≤ S100x20.size a
  h_S100x20 : 0 < S100x20.numel
  shapeCasts_S100x20_S100x20 : S100x20.ShapeCasts S100x20
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x100x4096_S1x100x4096_0_0_0 : ∀ a, (![0, 0, 0] : Fin 3 → Nat) a + S1x100x4096.size a ≤ S1x100x4096.size a
  h_S1x100x4096 : 0 < S1x100x4096.numel
  shapeCasts_S1x100x4096_S100x4096 : S1x100x4096.ShapeCasts S100x4096
  inb_S1x20x4096_S1x20x4096_0_0_0 : ∀ a, (![0, 0, 0] : Fin 3 → Nat) a + S1x20x4096.size a ≤ S1x20x4096.size a
  h_S1x20x4096 : 0 < S1x20x4096.numel
  shapeCasts_S1x20x4096_S20x4096 : S1x20x4096.ShapeCasts S20x4096
  bitsLt_bf16_f32 : FTy.bits .bf16 < FTy.bits .f32
  transposes_S20x4096_p1_0_S4096x20 : S20x4096.Transposes [1, 0] S4096x20
  reduces_S100x4096_S100 : S100x4096.Reduces [1] S100
  shapeCasts_S100_S100x1 : S100.ShapeCasts S100x1
  reduces_S20x4096_S20 : S20x4096.Reduces [1] S20
  shapeCasts_S20_S20x1 : S20.ShapeCasts S20x1
  transposes_S20x1_p1_0_S1x20 : S20x1.Transposes [1, 0] S1x20
  broadcasts_S100x1_S100x20 : S100x1.Broadcasts S100x20
  broadcasts_S1x20_S100x20 : S1x20.Broadcasts S100x20
  inb_S1x100x20_S1x100x20_0_0_0 : ∀ a, (![0, 0, 0] : Fin 3 → Nat) a + S1x100x20.size a ≤ S1x100x20.size a
  h_S1x100x20 : 0 < S1x100x20.numel
  shapeCasts_S1x100x20_S100x20 : S1x100x20.ShapeCasts S100x20
  shapeCasts_S100x20_S1x100x20 : S100x20.ShapeCasts S1x100x20
  dot_S100x4096_S4096x20_S100x20_1_0_0_1_n_n_wf : DotDims.WF S100x4096 S4096x20 S100x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x4096.size a ≤ S4x100x65536.size a
  hwx0_0 : ∀ i : grid0.Coords, EltTy.bits .f32 = 32 ∨ (Rect.block (s := S4x100x65536) S1x100x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x4096.size a ≤ S4x20x65536.size a
  hwx0_1 : ∀ i : grid0.Coords, EltTy.bits .f32 = 32 ∨ (Rect.block (s := S4x20x65536) S1x20x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x20.size a ≤ S4x100x20.size a
  hwx0_2 : ∀ i : grid0.Coords, EltTy.bits .f32 = 32 ∨ (Rect.block (s := S4x100x20) S1x100x20.size (cc0_transform_2 i) (hinb0_2 i)).WholeWords (EltTy.packing .f32)

variable [Facts₀]

def dot_S100x4096_S4096x20_S100x20_1_0_0_1_n_n : DotDims S100x4096 S4096x20 S100x20 where
  lhsContracting := [1]
  rhsContracting := [0]
  lhsNonContracting := [0]
  rhsNonContracting := [1]
  lhsBatch := []
  rhsBatch := []
  wf := dot_S100x4096_S4096x20_S100x20_1_0_0_1_n_n_wf

abbrev win0_0 : Pipeline.Window sig grid0 :=
  Pipeline.Window.ofSpec (Memref.whole main_v0) S1x100x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x20x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x256x256 : Shape := ⟨4, ![4, 100, 256, 256]⟩
abbrev S4x20x256x256 : Shape := ⟨4, ![4, 20, 256, 256]⟩
abbrev S4x100x65536 : Shape := ⟨3, ![4, 100, 65536]⟩
abbrev S4x20x65536 : Shape := ⟨3, ![4, 20, 65536]⟩
abbrev S_ : Shape := ⟨0, ![]⟩
abbrev S4x100x20 : Shape := ⟨3, ![4, 100, 20]⟩
abbrev S4x100 : Shape := ⟨2, ![4, 100]⟩
abbrev S4x100x1 : Shape := ⟨3, ![4, 100, 1]⟩
abbrev S4x20 : Shape := ⟨2, ![4, 20]⟩
abbrev S4x1x20 : Shape := ⟨3, ![4, 1, 20]⟩

abbrev nBuf : Space → Nat
  | .hbm => 97
  | .vmem => 0
  | .smem => 0
  | _ => 0

abbrev bufTy : (tb : Table) → Fin (tcTables nBuf tb) → BufTy
  | .hbm, ⟨0, _⟩ => ⟨S4x100x256x256, .f32⟩
  | .hbm, ⟨1, _⟩ => ⟨S4x20x256x256, .f32⟩
  | .hbm, ⟨2, _⟩ => ⟨S4x100x65536, .f32⟩
  | .hbm, ⟨3, _⟩ => ⟨S4x20x65536, .f32⟩
  | .hbm, ⟨4, _⟩ => ⟨S4x100x65536, .f32⟩
  | .hbm, ⟨5, _⟩ => ⟨S4x100x65536, .f32⟩
  | .hbm, ⟨6, _⟩ => ⟨S_, .f32⟩
  | .hbm, ⟨7, _⟩ => ⟨S4x100x65536, .f32⟩
  | .hbm, ⟨8, _⟩ => ⟨S4x100x65536, .f32⟩
  | .hbm, ⟨9, _⟩ => ⟨S_, .f32⟩
  | .hbm, ⟨10, _⟩ => ⟨S4x100x65536, .f32⟩
  | .hbm, ⟨11, _⟩ => ⟨S4x100x65536, .f32⟩
  | .hbm, ⟨12, _⟩ => ⟨S4x100x65536, .f32⟩
  | .hbm, ⟨13, _⟩ => ⟨S_, .f32⟩
  | .hbm, ⟨14, _⟩ => ⟨S4x100x65536, .f32⟩
  | .hbm, ⟨15, _⟩ => ⟨S4x100x65536, .f32⟩
  | .hbm, ⟨16, _⟩ => ⟨S4x100x65536, .f32⟩
  | .hbm, ⟨17, _⟩ => ⟨S4x100x65536, .f32⟩
  | .hbm, ⟨18, _⟩ => ⟨S4x100x65536, .i1⟩
  | .hbm, ⟨19, _⟩ => ⟨S4x100x65536, .f32⟩
  | .hbm, ⟨20, _⟩ => ⟨S4x100x65536, .f32⟩
  | .hbm, ⟨21, _⟩ => ⟨S4x100x65536, .f32⟩
  | .hbm, ⟨22, _⟩ => ⟨S4x100x65536, .f32⟩
  | .hbm, ⟨23, _⟩ => ⟨S4x100x65536, .f32⟩
  | .hbm, ⟨24, _⟩ => ⟨S4x100x65536, .f32⟩
  | .hbm, ⟨25, _⟩ => ⟨S4x100x65536, .f32⟩
  | .hbm, ⟨26, _⟩ => ⟨S4x100x65536, .f32⟩
  | .hbm, ⟨27, _⟩ => ⟨S_, .f32⟩
  | .hbm, ⟨28, _⟩ => ⟨S4x100x65536, .f32⟩
  | .hbm, ⟨29, _⟩ => ⟨S4x100x65536, .f32⟩
  | .hbm, ⟨30, _⟩ => ⟨S4x100x65536, .f32⟩
  | .hbm, ⟨31, _⟩ => ⟨S4x100x65536, .f32⟩
  | .hbm, ⟨32, _⟩ => ⟨S4x100x65536, .i1⟩
  | .hbm, ⟨33, _⟩ => ⟨S4x100x65536, .f32⟩
  | .hbm, ⟨34, _⟩ => ⟨S4x100x65536, .f32⟩
  | .hbm, ⟨35, _⟩ => ⟨S4x100x65536, .f32⟩
  | .hbm, ⟨36, _⟩ => ⟨S4x100x65536, .f32⟩
  | .hbm, ⟨37, _⟩ => ⟨S4x100x65536, .f32⟩
  | .hbm, ⟨38, _⟩ => ⟨S4x100x65536, .f32⟩
  | .hbm, ⟨39, _⟩ => ⟨S4x100x65536, .f32⟩
  | .hbm, ⟨40, _⟩ => ⟨S4x100x65536, .f32⟩
  | .hbm, ⟨41, _⟩ => ⟨S_, .f32⟩
  | .hbm, ⟨42, _⟩ => ⟨S4x100x65536, .f32⟩
  | .hbm, ⟨43, _⟩ => ⟨S4x100x65536, .f32⟩
  | .hbm, ⟨44, _⟩ => ⟨S_, .f32⟩
  | .hbm, ⟨45, _⟩ => ⟨S4x100x65536, .f32⟩
  | .hbm, ⟨46, _⟩ => ⟨S4x100x65536, .f32⟩
  | .hbm, ⟨47, _⟩ => ⟨S_, .f32⟩
  | .hbm, ⟨48, _⟩ => ⟨S4x100x65536, .f32⟩
  | .hbm, ⟨49, _⟩ => ⟨S4x100x65536, .f32⟩
  | .hbm, ⟨50, _⟩ => ⟨S4x100x65536, .f32⟩
  | .hbm, ⟨51, _⟩ => ⟨S_, .f32⟩
  | .hbm, ⟨52, _⟩ => ⟨S4x100x65536, .f32⟩
  | .hbm, ⟨53, _⟩ => ⟨S4x100x65536, .f32⟩
  | .hbm, ⟨54, _⟩ => ⟨S_, .f32⟩
  | .hbm, ⟨55, _⟩ => ⟨S4x100x65536, .f32⟩
  | .hbm, ⟨56, _⟩ => ⟨S4x100x65536, .f32⟩
  | .hbm, ⟨57, _⟩ => ⟨S4x100x65536, .f32⟩
  | .hbm, ⟨58, _⟩ => ⟨S4x100x20, .f32⟩
  | .hbm, ⟨59, _⟩ => ⟨S_, .f32⟩
  | .hbm, ⟨60, _⟩ => ⟨S4x20x65536, .f32⟩
  | .hbm, ⟨61, _⟩ => ⟨S4x20x65536, .f32⟩
  | .hbm, ⟨62, _⟩ => ⟨S4x100x20, .f32⟩
  | .hbm, ⟨63, _⟩ => ⟨S4x100x20, .f32⟩
  | .hbm, ⟨64, _⟩ => ⟨S_, .f32⟩
  | .hbm, ⟨65, _⟩ => ⟨S4x100x20, .f32⟩
  | .hbm, ⟨66, _⟩ => ⟨S4x100x20, .f32⟩
  | .hbm, ⟨67, _⟩ => ⟨S4x100x20, .f32⟩
  | .hbm, ⟨68, _⟩ => ⟨S_, .f32⟩
  | .hbm, ⟨69, _⟩ => ⟨S4x100x20, .f32⟩
  | .hbm, ⟨70, _⟩ => ⟨S4x100x20, .f32⟩
  | .hbm, ⟨71, _⟩ => ⟨S_, .f32⟩
  | .hbm, ⟨72, _⟩ => ⟨S4x100, .f32⟩
  | .hbm, ⟨73, _⟩ => ⟨S4x100x1, .f32⟩
  | .hbm, ⟨74, _⟩ => ⟨S_, .f32⟩
  | .hbm, ⟨75, _⟩ => ⟨S4x20, .f32⟩
  | .hbm, ⟨76, _⟩ => ⟨S4x1x20, .f32⟩
  | .hbm, ⟨77, _⟩ => ⟨S4x100x20, .f32⟩
  | .hbm, ⟨78, _⟩ => ⟨S4x100x20, .f32⟩
  | .hbm, ⟨79, _⟩ => ⟨S4x100x20, .f32⟩
  | .hbm, ⟨80, _⟩ => ⟨S_, .f32⟩
  | .hbm, ⟨81, _⟩ => ⟨S4x100x20, .f32⟩
  | .hbm, ⟨82, _⟩ => ⟨S4x100x20, .f32⟩
  | .hbm, ⟨83, _⟩ => ⟨S_, .f32⟩
  | .hbm, ⟨84, _⟩ => ⟨S4x100x20, .f32⟩
  | .hbm, ⟨85, _⟩ => ⟨S4x100x20, .f32⟩
  | .hbm, ⟨86, _⟩ => ⟨S4x100x20, .f32⟩
  | .hbm, ⟨87, _⟩ => ⟨S_, .f32⟩
  | .hbm, ⟨88, _⟩ => ⟨S4x100x20, .f32⟩
  | .hbm, ⟨89, _⟩ => ⟨S4x100x20, .f32⟩
  | .hbm, ⟨90, _⟩ => ⟨S_, .f32⟩
  | .hbm, ⟨91, _⟩ => ⟨S4x100x20, .f32⟩
  | .hbm, ⟨92, _⟩ => ⟨S4x100x20, .f32⟩
  | .hbm, ⟨93, _⟩ => ⟨S_, .f32⟩
  | .hbm, ⟨94, _⟩ => ⟨S4x100x20, .f32⟩
  | .hbm, ⟨95, _⟩ => ⟨S4x100x20, .f32⟩
  | .hbm, ⟨96, _⟩ => ⟨S4x100x20, .f32⟩
  | _, _ => ⟨S4x100x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_4 : Ref sig .tc := ⟨.hbm, 51, rfl⟩
abbrev main_v18 : Ref sig .tc := ⟨.hbm, 52, rfl⟩
abbrev main_v19 : Ref sig .tc := ⟨.hbm, 53, rfl⟩
abbrev main_cst_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_8 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_13 : Ref sig .tc := ⟨.hbm, 87, rfl⟩
abbrev main_v45 : Ref sig .tc := ⟨.hbm, 88, rfl⟩
abbrev main_v46 : Ref sig .tc := ⟨.hbm, 89, rfl⟩
abbrev main_cst_14 : Ref sig .tc := ⟨.hbm, 90, rfl⟩
abbrev main_v47 : Ref sig .tc := ⟨.hbm, 91, rfl⟩
abbrev main_v48 : Ref sig .tc := ⟨.hbm, 92, rfl⟩
abbrev main_cst_15 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩

abbrev nD : Nat := 1
abbrev τ : Topo := Topo.v7x

variable {F : FTy → Type} [FloatOps F]

class Facts₀ : Prop where
  shapeCasts_S4x100x256x256_S4x100x65536 : S4x100x256x256.ShapeCasts S4x100x65536
  shapeCasts_S4x20x256x256_S4x20x65536 : S4x20x256x256.ShapeCasts S4x20x65536
  bcast_S_S4x100x65536 : S_.BroadcastsInDim S4x100x65536 (![] : Fin 0 → Fin S4x100x65536.rank)
  bcast_S_S4x20x65536 : S_.BroadcastsInDim S4x20x65536 (![] : Fin 0 → Fin S4x20x65536.rank)
  bcast_S_S4x100x20 : S_.BroadcastsInDim S4x100x20 (![] : Fin 0 → Fin S4x100x20.rank)
  reducesTo_S4x100x65536_S4x100_d2 : S4x100x65536.ReducesTo [2] S4x100
  h_S_ : 0 < S_.numel
  bcast_S4x100_S4x100x1_0_1 : S4x100.BroadcastsInDim S4x100x1 (![0, 1] : Fin 2 → Fin S4x100x1.rank)
  reducesTo_S4x20x65536_S4x20_d2 : S4x20x65536.ReducesTo [2] S4x20
  bcast_S4x20_S4x1x20_0_2 : S4x20.BroadcastsInDim S4x1x20 (![0, 2] : Fin 2 → Fin S4x1x20.rank)
  bcast_S4x100x1_S4x100x20_0_1_2 : S4x100x1.BroadcastsInDim S4x100x20 (![0, 1, 2] : Fin 3 → Fin S4x100x20.rank)
  bcast_S4x1x20_S4x100x20_0_1_2 : S4x1x20.BroadcastsInDim S4x100x20 (![0, 1, 2] : Fin 3 → Fin S4x100x20.rank)
  dot_S4x100x65536_S4x20x65536_S4x100x20_2_2_1_1_0_0_wf : DotDims.WF S4x100x65536 S4x20x65536 S4x100x20 [2] [2] [1] [1] [0] [0]

variable [Facts₀]

def dot_S4x100x65536_S4x20x65536_S4x100x20_2_2_1_1_0_0 : DotDims S4x100x65536 S4x20x65536 S4x100x20 where
  lhsContracting := [2]
  rhsContracting := [2]
  lhsNonContracting := [1]
  rhsNonContracting := [1]
  lhsBatch := [0]
  rhsBatch := [0]
  wf := dot_S4x100x65536_S4x20x65536_S4x100x20_2_2_1_1_0_0_wf

class Facts : Prop extends Facts₀ where

variable [Facts]
-- ==== Proof.KernelPieces.lean ====
/-
  What the kernel body leaves in its four running totals and in the output block, case by case.

  The body runs in three ways: at the first pixel tile of a batch it resets the totals, at a middle tile it only
  accumulates, at the last tile it accumulates and then writes the output block. In every case each total ends at
  ONE STEP from its previous contents (from the zero block at a first tile), and the step is the body's own
  arithmetic for that total; at a last tile the output block is the body's final formula of the four stepped
  totals. These statements hold at every float instance.
-/
import proofs.«138303_j64415919505539_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point does to each running total

`x0` is the point's block of logits, `x1` its block of the target masks, `acc` what the total held before. -/

/-- The focal total after the point: the old total plus the tile's two contractions. -/
abbrev stepMask (x0 : Vec F S1x100x4096 .f32) (x1 : Vec F S1x20x4096 .f32) (acc : Vec F S100x20 .f32) : Vec F S100x20 .f32 :=
  k0_pay15 (k0_pay8 x1) (k0_pay9 x0) (k0_pay10 x0) (k0_pay11 x0) (k0_pay12 x0) k0_pay13 acc
/-- The dice total after the point: the old total plus twice the tile's overlap. -/
abbrev stepDice (x0 : Vec F S1x100x4096 .f32) (x1 : Vec F S1x20x4096 .f32) (acc : Vec F S100x20 .f32) : Vec F S100x20 .f32 :=
  k0_pay16 (k0_pay8 x1) (k0_pay9 x0) acc
/-- The probability mass after the point: the old mass plus the tile's row sums of the sigmoid. -/
abbrev stepProb (x0 : Vec F S1x100x4096 .f32) (acc : Vec F S100x1 .f32) : Vec F S100x1 .f32 :=
  k0_pay17 (k0_pay9 x0) acc
/-- The target mass after the point: the old mass plus the tile's row sums of the target. -/
abbrev stepTgt (x1 : Vec F S1x20x4096 .f32) (acc : Vec F S20x1 .f32) : Vec F S20x1 .f32 :=
  k0_pay1 (k0_pay8 x1) acc

/-! ## First tile of a batch: every total is reset to the zero block, then stepped -/

/-- At a batch's first tile the focal total ends at one step from the zero block: the kernel stores zeros, reads them
    back, and adds the tile's contribution. -/
theorem first_0 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : cond0_0 i) (hc1 : ¬cond0_1 i)
    (x0 : Vec F S1x100x4096 .f32) (x1 : Vec F S1x20x4096 .f32) :
    sout0_A_0 c i a2 h2 a3 h3 a4 h4 a5 h5 a6 h6 a7 h7 a8 h8 hc0 hc1 x0 x1 = k0_pay15 (k0_pay8 x1) (k0_pay9 x0) (k0_pay10 x0) (k0_pay11 x0) (k0_pay12 x0) k0_pay13 k0_pay3 := by
  unfold sout0_A_0
  rw [View.read_writes_eq_canon _ _ _ (scover0_A_0 c i a2 h2 a3 h3 a4 h4 a5 h5 a6 h6 a7 h7 a8 h8 hc0 hc1 x0 x1)]
  unfold kernelRun0_A
  dsimp only
  sl_unfold_words
  rw [View.canon_cons_unit_zero (S := S100x20) hz2, View.readCov_unit_zero (S := S100x20) _ hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's first tile the dice total ends at one step from the zero block: the kernel stores zeros, reads them
    back, and adds the tile's contribution. -/
theorem first_1 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : cond0_0 i) (hc1 : ¬cond0_1 i)
    (x0 : Vec F S1x100x4096 .f32) (x1 : Vec F S1x20x4096 .f32) :
    sout0_A_1 c i a2 h2 a3 h3 a4 h4 a5 h5 a6 h6 a7 h7 a8 h8 hc0 hc1 x0 x1 = k0_pay16 (k0_pay8 x1) (k0_pay9 x0) k0_pay4 := by
  unfold sout0_A_1
  rw [View.read_writes_eq_canon _ _ _ (scover0_A_1 c i a2 h2 a3 h3 a4 h4 a5 h5 a6 h6 a7 h7 a8 h8 hc0 hc1 x0 x1)]
  unfold kernelRun0_A
  dsimp only
  sl_unfold_words
  rw [View.canon_cons_unit_zero (S := S100x20) hz2, View.readCov_unit_zero (S := S100x20) _ hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's first tile the probability mass ends at one step from the zero block: the kernel stores zeros, reads them
    back, and adds the tile's contribution. -/
theorem first_2 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : cond0_0 i) (hc1 : ¬cond0_1 i)
    (x0 : Vec F S1x100x4096 .f32) (x1 : Vec F S1x20x4096 .f32) :
    sout0_A_2 c i a2 h2 a3 h3 a4 h4 a5 h5 a6 h6 a7 h7 a8 h8 hc0 hc1 x0 x1 = k0_pay17 (k0_pay9 x0) k0_pay5 := by
  unfold sout0_A_2
  rw [View.read_writes_eq_canon _ _ _ (scover0_A_2 c i a2 h2 a3 h3 a4 h4 a5 h5 a6 h6 a7 h7 a8 h8 hc0 hc1 x0 x1)]
  unfold kernelRun0_A
  dsimp only
  sl_unfold_words
  rw [View.canon_cons_unit_zero (S := S100x1) hz2, View.readCov_unit_zero (S := S100x1) _ hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's first tile the target mass ends at one step from the zero block: the kernel stores zeros, reads them
    back, and adds the tile's contribution. -/
theorem first_3 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : cond0_0 i) (hc1 : ¬cond0_1 i)
    (x0 : Vec F S1x100x4096 .f32) (x1 : Vec F S1x20x4096 .f32) :
    sout0_A_3 c i a2 h2 a3 h3 a4 h4 a5 h5 a6 h6 a7 h7 a8 h8 hc0 hc1 x0 x1 = k0_pay1 (k0_pay8 x1) k0_pay6 := by
  unfold sout0_A_3
  rw [View.read_writes_eq_canon _ _ _ (scover0_A_3 c i a2 h2 a3 h3 a4 h4 a5 h5 a6 h6 a7 h7 a8 h8 hc0 hc1 x0 x1)]
  unfold kernelRun0_A
  dsimp only
  sl_unfold_words
  rw [View.canon_cons_unit_zero (S := S20x1) hz2, View.readCov_unit_zero (S := S20x1) _ hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-! ## A middle tile: every total is stepped from what the tile before left -/

/-- At a middle tile the focal total ends at one step from what it held. -/
theorem middle_0 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : ¬cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_B_0 c i a2 h2 a3 h3 a4 h4 a5 h5 a6 h6 a7 h7 a8 h8 hc0 hc1 x0 x1 xs0 xs1 xs2 xs3 = k0_pay15 (k0_pay8 x1) (k0_pay9 x0) (k0_pay10 x0) (k0_pay11 x0) (k0_pay12 x0) k0_pay13 xs0 := by
  unfold sout0_B_0
  rw [View.read_writes_eq_canon _ _ _ (scover0_B_0 c i a2 h2 a3 h3 a4 h4 a5 h5 a6 h6 a7 h7 a8 h8 hc0 hc1 x0 x1 xs0 xs1 xs2 xs3)]
  unfold kernelRun0_B
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a middle tile the dice total ends at one step from what it held. -/
theorem middle_1 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : ¬cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_B_1 c i a2 h2 a3 h3 a4 h4 a5 h5 a6 h6 a7 h7 a8 h8 hc0 hc1 x0 x1 xs0 xs1 xs2 xs3 = k0_pay16 (k0_pay8 x1) (k0_pay9 x0) xs1 := by
  unfold sout0_B_1
  rw [View.read_writes_eq_canon _ _ _ (scover0_B_1 c i a2 h2 a3 h3 a4 h4 a5 h5 a6 h6 a7 h7 a8 h8 hc0 hc1 x0 x1 xs0 xs1 xs2 xs3)]
  unfold kernelRun0_B
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a middle tile the probability mass ends at one step from what it held. -/
theorem middle_2 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : ¬cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_B_2 c i a2 h2 a3 h3 a4 h4 a5 h5 a6 h6 a7 h7 a8 h8 hc0 hc1 x0 x1 xs0 xs1 xs2 xs3 = k0_pay17 (k0_pay9 x0) xs2 := by
  unfold sout0_B_2
  rw [View.read_writes_eq_canon _ _ _ (scover0_B_2 c i a2 h2 a3 h3 a4 h4 a5 h5 a6 h6 a7 h7 a8 h8 hc0 hc1 x0 x1 xs0 xs1 xs2 xs3)]
  unfold kernelRun0_B
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a middle tile the target mass ends at one step from what it held. -/
theorem middle_3 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : ¬cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_B_3 c i a2 h2 a3 h3 a4 h4 a5 h5 a6 h6 a7 h7 a8 h8 hc0 hc1 x0 x1 xs0 xs1 xs2 xs3 = k0_pay1 (k0_pay8 x1) xs3 := by
  unfold sout0_B_3
  rw [View.read_writes_eq_canon _ _ _ (scover0_B_3 c i a2 h2 a3 h3 a4 h4 a5 h5 a6 h6 a7 h7 a8 h8 hc0 hc1 x0 x1 xs0 xs1 xs2 xs3)]
  unfold kernelRun0_B
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-! ## The last tile of a batch: every total is stepped once more, and the output block is written from them -/

/-- At a batch's last tile the focal total ends at one step from what it held. -/
theorem last_0 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_C_0 c i a2 h2 a3 h3 a4 h4 a5 h5 a6 h6 a7 h7 a8 h8 hc0 hc1 x0 x1 xs0 xs1 xs2 xs3 = k0_pay15 (k0_pay8 x1) (k0_pay9 x0) (k0_pay10 x0) (k0_pay11 x0) (k0_pay12 x0) k0_pay13 xs0 := by
  unfold sout0_C_0
  rw [View.read_writes_eq_canon _ _ _ (scover0_C_0 c i a2 h2 a3 h3 a4 h4 a5 h5 a6 h6 a7 h7 a8 h8 hc0 hc1 x0 x1 xs0 xs1 xs2 xs3)]
  unfold kernelRun0_C
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's last tile the dice total ends at one step from what it held. -/
theorem last_1 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_C_1 c i a2 h2 a3 h3 a4 h4 a5 h5 a6 h6 a7 h7 a8 h8 hc0 hc1 x0 x1 xs0 xs1 xs2 xs3 = k0_pay16 (k0_pay8 x1) (k0_pay9 x0) xs1 := by
  unfold sout0_C_1
  rw [View.read_writes_eq_canon _ _ _ (scover0_C_1 c i a2 h2 a3 h3 a4 h4 a5 h5 a6 h6 a7 h7 a8 h8 hc0 hc1 x0 x1 xs0 xs1 xs2 xs3)]
  unfold kernelRun0_C
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's last tile the probability mass ends at one step from what it held. -/
theorem last_2 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_C_2 c i a2 h2 a3 h3 a4 h4 a5 h5 a6 h6 a7 h7 a8 h8 hc0 hc1 x0 x1 xs0 xs1 xs2 xs3 = k0_pay17 (k0_pay9 x0) xs2 := by
  unfold sout0_C_2
  rw [View.read_writes_eq_canon _ _ _ (scover0_C_2 c i a2 h2 a3 h3 a4 h4 a5 h5 a6 h6 a7 h7 a8 h8 hc0 hc1 x0 x1 xs0 xs1 xs2 xs3)]
  unfold kernelRun0_C
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's last tile the target mass ends at one step from what it held. -/
theorem last_3 (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    sout0_C_3 c i a2 h2 a3 h3 a4 h4 a5 h5 a6 h6 a7 h7 a8 h8 hc0 hc1 x0 x1 xs0 xs1 xs2 xs3 = k0_pay1 (k0_pay8 x1) xs3 := by
  unfold sout0_C_3
  rw [View.read_writes_eq_canon _ _ _ (scover0_C_3 c i a2 h2 a3 h3 a4 h4 a5 h5 a6 h6 a7 h7 a8 h8 hc0 hc1 x0 x1 xs0 xs1 xs2 xs3)]
  unfold kernelRun0_C
  dsimp only
  sl_unfold_words
  rw [View.canon_unit_zero hz2]
  simp only [View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

/-- At a batch's last tile the output block is the final combination of the four totals AS JUST STEPPED: the kernel
    reads each total back after storing it. -/
theorem last_out (c : Dev nD) (i : grid0.Coords) (a2 : Memref sig .tc .vmem S1x100x4096 .f32) (h2 : a2.IsWhole) (a3 : Memref sig .tc .vmem S1x20x4096 .f32) (h3 : a3.IsWhole) (a4 : Memref sig .tc .vmem S1x100x20 .f32) (h4 : a4.IsWhole) (a5 : Memref sig .tc .vmem S100x20 .f32) (h5 : a5.IsWhole) (a6 : Memref sig .tc .vmem S100x20 .f32) (h6 : a6.IsWhole) (a7 : Memref sig .tc .vmem S100x1 .f32) (h7 : a7.IsWhole) (a8 : Memref sig .tc .vmem S20x1 .f32) (h8 : a8.IsWhole) (hc0 : ¬cond0_0 i) (hc1 : cond0_1 i)
    (x0 : Vec F S1x100x4096 .f32) (x1 : Vec F S1x20x4096 .f32) (xs0 : Vec F S100x20 .f32) (xs1 : Vec F S100x20 .f32) (xs2 : Vec F S100x1 .f32) (xs3 : Vec F S20x1 .f32) :
    out0_C_2 c i a2 h2 a3 h3 a4 h4 a5 h5 a6 h6 a7 h7 a8 h8 hc0 hc1 x0 x1 xs0 xs1 xs2 xs3
      = k0_pay2 (k0_pay15 (k0_pay8 x1) (k0_pay9 x0) (k0_pay10 x0) (k0_pay11 x0) (k0_pay12 x0) k0_pay13 xs0)
          (k0_pay17 (k0_pay9 x0) xs2) (k0_pay1 (k0_pay8 x1) xs3) (k0_pay16 (k0_pay8 x1) (k0_pay9 x0) xs1) := by
  unfold out0_C_2
  rw [View.read_writes_eq_canon _ _ _ (cover0_C_2 c i a2 h2 a3 h3 a4 h4 a5 h5 a6 h6 a7 h7 a8 h8 hc0 hc1 x0 x1 xs0 xs1 xs2 xs3)]
  unfold kernelRun0_C
  dsimp only
  sl_unfold_words
  rw [View.canon_unit_zero hz3]
  simp only [View.readCov_unit_zero (S := S100x20) _ hz2, View.readCov_unit_zero (S := S100x1) _ hz2,
    View.readCov_unit_zero (S := S20x1) _ hz2, View.readAt_eq_ld, h2.read_unread, h3.read_unread, h5.read_unread, h6.read_unread, h7.read_unread, h8.read_unread,
    View.ld_unit_zero (S := S100x20) hz2, View.ld_unit_zero (S := S100x1) hz2, View.ld_unit_zero (S := S20x1) hz2,
    View.ld_unit_zero (S := S1x100x4096) hz3, View.ld_unit_zero (S := S1x20x4096) hz3]

end Cert.KernelIdeal.Pieces

end
-- ==== Proof.SumLaws.lean ====
/-
  Two laws of finite sums on the extended reals.

  The kernel walks the 65536 pixels of a mask in 16 tiles of 4096 and adds each tile's partial sums into running
  totals; the reference sums all pixels at once. Joining them takes two facts, both valid for every extended real
  (no finiteness is asked): a nonnegative real factor distributes over a finite sum, and a sum over the whole axis
  is the sum over the tiles of the sums within each tile.
-/
import Mathlib

noncomputable section

namespace Cert.SumLaws

open Finset

/-- A nonnegative real factor distributes over a finite sum of extended reals. (For an arbitrary factor this fails
    when the sum mixes the two infinities; a nonnegative finite factor preserves every sign, so it holds.) -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- Pixel `k` of tile `h`, among 16 tiles of 4096 pixels, is pixel `4096·h + k` of the whole mask. -/
def tileEquiv : Fin 16 × Fin 4096 ≃ Fin 65536 where
  toFun p := ⟨4096 * p.1.val + p.2.val, by have := p.1.isLt; have := p.2.isLt; omega⟩
  invFun c := (⟨c.val / 4096, by have := c.isLt; omega⟩, ⟨c.val % 4096, Nat.mod_lt _ (by norm_num)⟩)
  left_inv p := by
    obtain ⟨⟨h, hh⟩, ⟨k, hk⟩⟩ := p
    simp only [Prod.mk.injEq, Fin.mk.injEq]
    constructor <;> omega
  right_inv c := by
    apply Fin.ext
    simp only
    omega

theorem tileEquiv_val (h : Fin 16) (k : Fin 4096) : (tileEquiv (h, k)).val = 4096 * h.val + k.val := rfl

/-- A sum over all pixels is the sum over the tiles of the sums within each tile. -/
theorem sum_tiles {β : Type*} [AddCommMonoid β] (f : Fin 65536 → β) :
    ∑ c : Fin 65536, f c = ∑ h : Fin 16, ∑ k : Fin 4096, f (tileEquiv (h, k)) := by
  rw [← Equiv.sum_comp tileEquiv f, Fintype.sum_prod_type]

end Cert.SumLaws

end
-- ==== Proof.Consts.lean ====
/-
  The float words the two programs spell whose value the proof uses, as the extended reals they denote.

  The words for 0.25 and 0.75 appear on both sides in the same places and are never evaluated. The five below are
  needed as numbers: 0 and 1 to read the sigmoid and the accumulators' start, 2 as the focal exponent and as the
  factor of the dice numerator, and the pair 2^-16 / 65536 because the kernel multiplies by the reciprocal of the
  pixel count where the reference divides by the count.
-/
import Idealize.ShloMosaic.PureOps.Ideal
import Idealize.ShloMosaic.PureOps.Ideal.Laws

noncomputable section

namespace Cert.Consts

open Idealize.ShloMosaic

/-- The word of `+0.0` denotes 0. -/
theorem w_zero : Ideal.ofBits .f32 0x00000000#32 = 0 := Ideal.ofBits_zero_f32

/-- The word of `1.0` denotes 1. -/
theorem w_one : Ideal.ofBits .f32 0x3F800000#32 = 1 := by
  simp [Ideal.ofBits, Ideal.ieee, -EReal.coe_mul]; norm_num

/-- The word of `2.0` denotes the real 2. -/
theorem w_two : Ideal.ofBits .f32 0x40000000#32 = ((2 : ℝ) : EReal) := by
  simp [Ideal.ofBits, Ideal.ieee, -EReal.coe_mul]; norm_num

/-- The word of `65536.0` denotes the real 65536. -/
theorem w_count : Ideal.ofBits .f32 0x47800000#32 = ((65536 : ℝ) : EReal) := by
  simp [Ideal.ofBits, Ideal.ieee, -EReal.coe_mul]; norm_num

/-- The word `0x37800000` denotes exactly 2^-16 = 1/65536: the reciprocal of the pixel count is a power of two,
    so the kernel's folded constant is the exact rational. -/
theorem w_inv_count : Ideal.ofBits .f32 0x37800000#32 = ((1 / 65536 : ℝ) : EReal) := by
  simp [Ideal.ofBits, Ideal.ieee, -EReal.coe_mul]; norm_num

end Cert.Consts

end
-- ==== Proof.CostSpec.lean ====
/-
  The matching cost, as one function of the two flattened arrays, and its tile-by-tile form.

  For a batch `b`, a prediction `p` and a target `g`, with `x = X[b,p,·]` the 65536 logits of the predicted mask and
  `t = T[b,g,·]` the target mask, write `σ` for the sigmoid and `sp y = max y 0 + log(1 + e^(-|y|))` for the
  softplus. The cost is

      ( Σ_c 0.25·(1-σ x_c)²·sp(-x_c) · t_c  +  Σ_c 0.75·(σ x_c)²·sp(x_c) · (1 - t_c) ) / 65536
        +  1 - (2·Σ_c σ x_c · t_c + 1) / (Σ_c σ x_c + Σ_c t_c + 1).

  The reference computes exactly this. The kernel walks the pixel axis in 16 tiles of 4096: at each tile it adds
  the tile's four partial sums into running totals that start at zero, doubles the dice partial tile by tile, and
  at the last tile multiplies the focal total by 2^-16 instead of dividing by 65536. `tiledCost_eq` says the two
  agree on every extended real: sums regroup freely, the factor 2 is a nonnegative real and distributes over the
  sum, and 2^-16 is exactly 1/65536.

  The squares: the reference raises to the power 2.0, the kernel multiplies. The sigmoid of any extended real is
  a real number in [0,1] (0 at -∞, 1 at +∞), so both bases are real and the real power 2 is the product.
-/
import Idealize.ShloMosaic.PureOps.Ideal
import Idealize.ShloMosaic.PureOps.Ideal.Laws
import Idealize.ShloMosaic.Lib.ValueIdx
import proofs.«138303_j64415919505539_1_alg».proof.Proof.SumLaws
import proofs.«138303_j64415919505539_1_alg».proof.Proof.Consts

noncomputable section

namespace Cert.Cost

open Idealize.ShloMosaic Idealize.ShloMosaic.ValueIdx Finset

/-! ## The pointwise functions -/

/-- The word of 0.25, the weight of the positive focal term (never evaluated: both programs spell it). -/
abbrev wq : EReal := Ideal.ofBits .f32 0x3E800000#32
/-- The word of 0.75, the weight of the negative focal term. -/
abbrev wt : EReal := Ideal.ofBits .f32 0x3F400000#32

/-- The sigmoid `1 / (1 + e^(-x))`. -/
def prob (x : EReal) : EReal := Ideal.logistic x

/-- The softplus `log(1 + e^y)` in its stable form `max y 0 + log(1 + e^(-|y|))`, `|y| = max y (-y)`. -/
def sp (y : EReal) : EReal := max y 0 + Ideal.log1p (Ideal.exp (-(max y (-y))))

/-- The focal weight of a pixel where the target is 1. -/
def fpos (x : EReal) : EReal := wq * ((1 - prob x) * (1 - prob x)) * sp (-x)
/-- The focal weight of a pixel where the target is 0. -/
def fneg (x : EReal) : EReal := wt * (prob x * prob x) * sp x

/-- The sigmoid of any extended real is a real number. -/
theorem prob_real (x : EReal) : ∃ r : ℝ, prob x = (r : EReal) := by
  induction x using EReal.rec with
  | bot => exact ⟨0, by rw [prob, Ideal.logistic_bot, EReal.coe_zero]⟩
  | coe r => exact ⟨_, by rw [prob, Ideal.logistic_coe]⟩
  | top => exact ⟨1, by rw [prob, Ideal.logistic_top, EReal.coe_one]⟩

/-- The real power 2 of a real base is the product of the base with itself. -/
theorem pow_two_coe (r : ℝ) : Ideal.pow (r : EReal) ((2 : ℝ) : EReal) = (r : EReal) * (r : EReal) := by
  rw [Ideal.pow_coe_coe, ← EReal.coe_mul]
  congr 1
  show r ^ (2 : ℝ) = r * r
  rw [Real.rpow_two, sq]

theorem pow_two_prob (x : EReal) : Ideal.pow (prob x) ((2 : ℝ) : EReal) = prob x * prob x := by
  obtain ⟨r, hr⟩ := prob_real x
  rw [hr, pow_two_coe]

theorem pow_two_one_sub_prob (x : EReal) :
    Ideal.pow (1 - prob x) ((2 : ℝ) : EReal) = (1 - prob x) * (1 - prob x) := by
  obtain ⟨r, hr⟩ := prob_real x
  rw [hr, show (1 : EReal) - (r : EReal) = ((1 - r : ℝ) : EReal) by rw [EReal.coe_sub, EReal.coe_one], pow_two_coe]

/-- Neither program's test "is this a NaN" (the value differs from itself) ever fires on an extended real. -/
theorem cmp_one_self (x : EReal) : Ideal.cmp .one x x = 0#1 := by simp [Ideal.cmp]
theorem cmp_une_self (x : EReal) : Ideal.cmp .une x x = 0#1 := by simp [Ideal.cmp]

/-- The absolute value and the comparison of the extended-real instance, spelled out. -/
theorem absf_eq (x : EReal) : FloatOps.absf (F := Ideal) (φ := .f32) x = max x (-x) := rfl
theorem cmpf_eq (p : CmpFPredicate) (x y : EReal) : FloatOps.cmpf (F := Ideal) (φ := .f32) p x y = Ideal.cmp p x y := rfl

/-! ## The cost, whole -/

abbrev SX : Shape := ⟨3, ![4, 100, 65536]⟩
abbrev ST : Shape := ⟨3, ![4, 20, 65536]⟩

variable (X : SX.Idx → EReal) (T : ST.Idx → EReal)

/-- The two focal sums over all pixels. -/
def maskSum (b : Fin 4) (p : Fin 100) (g : Fin 20) : EReal :=
  (∑ c : Fin 65536, fpos (X (ix3 b p c)) * T (ix3 b g c))
    + ∑ c : Fin 65536, fneg (X (ix3 b p c)) * (1 - T (ix3 b g c))
/-- The overlap of the predicted probabilities with the target. -/
def diceSum (b : Fin 4) (p : Fin 100) (g : Fin 20) : EReal := ∑ c : Fin 65536, prob (X (ix3 b p c)) * T (ix3 b g c)
/-- The mass of the predicted probabilities. -/
def probSum (b : Fin 4) (p : Fin 100) : EReal := ∑ c : Fin 65536, prob (X (ix3 b p c))
/-- The mass of the target. -/
def tgtSum (b : Fin 4) (g : Fin 20) : EReal := ∑ c : Fin 65536, T (ix3 b g c)

/-- The cost of matching prediction `p` to target `g` in batch `b`. -/
def cost (b : Fin 4) (p : Fin 100) (g : Fin 20) : EReal :=
  Ideal.div (maskSum X T b p g) ((65536 : ℝ) : EReal)
    + (1 - Ideal.div (((2 : ℝ) : EReal) * diceSum X T b p g + 1) (probSum X b p + tgtSum T b g + 1))

/-! ## The cost, tile by tile -/

/-- Grid point `n` of the 4 × 16 grid works on batch `n / 16` … -/
def bat (n : ℕ) : Fin 4 := ⟨n / 16 % 4, Nat.mod_lt _ (by norm_num)⟩
/-- … and on tile `n % 16` of the pixel axis, whose pixel `k` is pixel `4096·(n % 16) + k` of the mask. -/
def pix (n : ℕ) (k : Fin 4096) : Fin 65536 :=
  ⟨4096 * (n % 16) + k.val, by have := k.isLt; have := Nat.mod_lt n (show 0 < 16 by norm_num); omega⟩

/-- What grid point `n` adds to the focal total. -/
def maskPart (n : ℕ) (p : Fin 100) (g : Fin 20) : EReal :=
  (∑ k : Fin 4096, fpos (X (ix3 (bat n) p (pix n k))) * T (ix3 (bat n) g (pix n k)))
    + ∑ k : Fin 4096, fneg (X (ix3 (bat n) p (pix n k))) * (1 - T (ix3 (bat n) g (pix n k)))
/-- What grid point `n` adds to the dice numerator's total: twice the tile's overlap. -/
def dicePart (n : ℕ) (p : Fin 100) (g : Fin 20) : EReal :=
  ((2 : ℝ) : EReal) * ∑ k : Fin 4096, prob (X (ix3 (bat n) p (pix n k))) * T (ix3 (bat n) g (pix n k))
/-- What grid point `n` adds to the probability mass. -/
def probPart (n : ℕ) (p : Fin 100) : EReal := ∑ k : Fin 4096, prob (X (ix3 (bat n) p (pix n k)))
/-- What grid point `n` adds to the target mass. -/
def tgtPart (n : ℕ) (g : Fin 20) : EReal := ∑ k : Fin 4096, T (ix3 (bat n) g (pix n k))

/-- What the last tile of batch `q` writes: the four totals, each zero plus its sixteen partial sums, combined. -/
def tiledCost (q : ℕ) (p : Fin 100) (g : Fin 20) : EReal :=
  (0 + ∑ s ∈ range 16, maskPart X T (16 * q + s) p g) * ((1 / 65536 : ℝ) : EReal)
    + (1 - Ideal.div ((0 + ∑ s ∈ range 16, dicePart X T (16 * q + s) p g) + 1)
        ((0 + ∑ s ∈ range 16, probPart X (16 * q + s) p) + (0 + ∑ s ∈ range 16, tgtPart T (16 * q + s) g) + 1))

theorem bat_eq (q s : ℕ) (hq : q < 4) (hs : s < 16) : bat (16 * q + s) = ⟨q, hq⟩ := by
  apply Fin.ext
  show (16 * q + s) / 16 % 4 = q
  omega

theorem pix_eq (q : ℕ) (s : Fin 16) (k : Fin 4096) : pix (16 * q + s.val) k = SumLaws.tileEquiv (s, k) := by
  apply Fin.ext
  show 4096 * ((16 * q + s.val) % 16) + k.val = 4096 * s.val + k.val
  have := s.isLt
  omega

/-- The sixteen tiles of batch `q` together are all its pixels. -/
theorem sum_parts (q : ℕ) (hq : q < 4) (f : Fin 4 → Fin 65536 → EReal) :
    ∑ s ∈ range 16, ∑ k : Fin 4096, f (bat (16 * q + s)) (pix (16 * q + s) k) = ∑ c : Fin 65536, f ⟨q, hq⟩ c := by
  rw [Finset.sum_range (fun s => ∑ k : Fin 4096, f (bat (16 * q + s)) (pix (16 * q + s) k)), SumLaws.sum_tiles]
  refine Finset.sum_congr rfl fun s _ => Finset.sum_congr rfl fun k _ => ?_
  rw [bat_eq q s.val hq s.isLt, pix_eq]

/-- The tile-by-tile cost is the cost. -/
theorem tiledCost_eq (q : ℕ) (hq : q < 4) (p : Fin 100) (g : Fin 20) :
    tiledCost X T q p g = cost X T ⟨q, hq⟩ p g := by
  have hm : ∑ s ∈ range 16, maskPart X T (16 * q + s) p g = maskSum X T ⟨q, hq⟩ p g := by
    unfold maskPart maskSum
    rw [Finset.sum_add_distrib,
      sum_parts q hq (fun b c => fpos (X (ix3 b p c)) * T (ix3 b g c)),
      sum_parts q hq (fun b c => fneg (X (ix3 b p c)) * (1 - T (ix3 b g c)))]
  have hd : ∑ s ∈ range 16, dicePart X T (16 * q + s) p g = ((2 : ℝ) : EReal) * diceSum X T ⟨q, hq⟩ p g := by
    unfold dicePart diceSum
    rw [← SumLaws.coe_mul_sum 2 (by norm_num), sum_parts q hq (fun b c => prob (X (ix3 b p c)) * T (ix3 b g c))]
  have hp : ∑ s ∈ range 16, probPart X (16 * q + s) p = probSum X ⟨q, hq⟩ p := by
    unfold probPart probSum
    exact sum_parts q hq (fun b c => prob (X (ix3 b p c)))
  have ht : ∑ s ∈ range 16, tgtPart T (16 * q + s) g = tgtSum T ⟨q, hq⟩ g := by
    unfold tgtPart tgtSum
    exact sum_parts q hq (fun b c => T (ix3 b g c))
  unfold tiledCost cost
  rw [hm, hd, hp, ht, zero_add, zero_add, zero_add, zero_add, Ideal.div_coe (by norm_num : (65536 : ℝ) ≠ 0)]

end Cert.Cost

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.KernelAt.lean ====
/-
  The kernel body's arithmetic read at an index, over the extended reals.

  `x0` is a grid point's block of logits (one batch, 100 predictions, 4096 pixels), `x1` its block of target masks
  (one batch, 20 targets, the same 4096 pixels). Pointwise the body forms the sigmoid, the two softplus values and
  the two focal weights of Proof/CostSpec.lean; a changed float format is the identity here. Each running total is
  then stepped by a sum over the tile's 4096 pixels: the two focal contractions and the overlap are products on the
  matrix unit into a zero accumulator, the two masses lane sums kept as columns. The output block is
  focal·2^-16 + 1 - (dice + 1) / (mass_p + mass_t + 1), the target mass transposed to a row and both masses spread
  over the 100 × 20 block.
-/
import proofs.«138303_j64415919505539_1_alg».proof.Proof.KernelPieces
import proofs.«138303_j64415919505539_1_alg».proof.Proof.CostSpec
import proofs.«138303_j64415919505539_1_alg».proof.Proof.LibPlainDot
import proofs.«138303_j64415919505539_1_alg».proof.Proof.LibKeepdims
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx

namespace Cert.KernelIdeal.At

open Cert.KernelIdeal Cert.KernelIdeal.Gen Cert.KernelIdeal.Pieces Cert.Cost

variable (x0 : Vec Ideal S1x100x4096 .f32) (x1 : Vec Ideal S1x20x4096 .f32)

theorem sofBits (b : BitVec 32) : Scalar.ofBits (F := Ideal) .f32 b = Ideal.ofBits .f32 b := rfl

/-! ## Pointwise -/

/-- The block of logits with its unit batch axis dropped. -/
theorem logits_apply (p : Fin 100) (k : Fin 4096) : k0_pay7 (F := Ideal) x0 (ix2 p k) = x0 (ix3 0 p k) := by
  unfold k0_pay7
  exact shapeCast_1ab_ab_apply x0 _ p k

/-- The block of target masks with its unit batch axis dropped. -/
theorem tgt_apply (g : Fin 20) (k : Fin 4096) : k0_pay8 (F := Ideal) x1 (ix2 g k) = x1 (ix3 0 g k) := by
  unfold k0_pay8
  exact shapeCast_1ab_ab_apply x1 _ g k

/-- The sigmoid of a logit. -/
theorem prob_apply (p : Fin 100) (k : Fin 4096) : k0_pay9 (F := Ideal) x0 (ix2 p k) = prob (x0 (ix3 0 p k)) := by
  unfold k0_pay9
  show Ideal.logistic (k0_pay7 (F := Ideal) x0 (ix2 p k)) = _
  rw [logits_apply]
  rfl

/-- The softplus of the negated logit: the kernel negates as `0 - x`, and its "is it a NaN" test never fires. -/
theorem spneg_apply (p : Fin 100) (k : Fin 4096) : k0_pay10 (F := Ideal) x0 (ix2 p k) = sp (-(x0 (ix3 0 p k))) := by
  simp only [k0_pay10, select, cmpf, subf, addf, maximumf, absf, exp, log1p, broadcast, sofBits, logits_apply,
    Ideal.addf_def, Ideal.subf_def, Ideal.maximumf_def, Ideal.exp_def, Ideal.log1p_def, absf_eq, cmpf_eq, Consts.w_zero,
    sub_zero, add_zero, zero_sub, cmp_one_self, select_zero]
  rfl

/-- The softplus of the logit. -/
theorem sppos_apply (p : Fin 100) (k : Fin 4096) : k0_pay11 (F := Ideal) x0 (ix2 p k) = sp (x0 (ix3 0 p k)) := by
  simp only [k0_pay11, select, cmpf, subf, addf, maximumf, absf, exp, log1p, broadcast, sofBits, logits_apply,
    Ideal.addf_def, Ideal.subf_def, Ideal.maximumf_def, Ideal.exp_def, Ideal.log1p_def, absf_eq, cmpf_eq, Consts.w_zero,
    sub_zero, add_zero, zero_sub, cmp_one_self, select_zero]
  rfl

/-- The square of one minus the sigmoid, as a product. -/
theorem sqneg_apply (p : Fin 100) (k : Fin 4096) :
    k0_pay12 (F := Ideal) x0 (ix2 p k) = (1 - prob (x0 (ix3 0 p k))) * (1 - prob (x0 (ix3 0 p k))) := by
  simp only [k0_pay12, mulf, subf, broadcast, sofBits, prob_apply, Ideal.mulf_def, Ideal.subf_def, Consts.w_one]

/-- The weight 0.25, splat. -/
theorem quarter_apply (p : Fin 100) (k : Fin 4096) : k0_pay13 (F := Ideal) (ix2 p k) = wq := rfl

/-! ## The zero blocks a batch's first tile stores -/

theorem zeroMask_apply (i : S100x20.Idx) : k0_pay3 (F := Ideal) i = 0 := by
  unfold k0_pay3; rw [shapeCast_self]; exact Consts.w_zero
theorem zeroDice_apply (i : S100x20.Idx) : k0_pay4 (F := Ideal) i = 0 := by
  unfold k0_pay4; rw [shapeCast_self]; exact Consts.w_zero
theorem zeroProb_apply (i : S100x1.Idx) : k0_pay5 (F := Ideal) i = 0 := by
  unfold k0_pay5; rw [shapeCast_self]; exact Consts.w_zero
theorem zeroTgt_apply (i : S20x1.Idx) : k0_pay6 (F := Ideal) i = 0 := by
  unfold k0_pay6; rw [shapeCast_self]; exact Consts.w_zero

/-! ## The four steps -/

/-- The focal total gains the tile's two contractions: the positive focal weights against the target, the negative
    ones against one minus the target. The target block enters transposed; a product on the matrix unit into a zero
    accumulator is the plain sum over the tile's pixels. -/
theorem stepMask_apply (acc : Vec Ideal S100x20 .f32) (p : Fin 100) (g : Fin 20) :
    stepMask (F := Ideal) x0 x1 acc (ix2 p g)
      = acc (ix2 p g) + ((∑ k : Fin 4096, fpos (x0 (ix3 0 p k)) * x1 (ix3 0 g k))
          + ∑ k : Fin 4096, fneg (x0 (ix3 0 p k)) * (1 - x1 (ix3 0 g k))) := by
  unfold stepMask k0_pay15
  rw [shapeCast_self]
  show acc (ix2 p g) + (matmul (F := Ideal) _ none _ _ _ (ix2 p g) + matmul (F := Ideal) _ none _ _ _ (ix2 p g)) = _
  rw [PlainDot.matmul_zero_apply dot_S100x4096_S4096x20_S100x20_1_0_0_1_n_n rfl, PlainDot.matmul_zero_apply dot_S100x4096_S4096x20_S100x20_1_0_0_1_n_n rfl]
  refine congrArg (acc (ix2 p g) + ·) (congrArg₂ (· + ·) (Finset.sum_congr rfl fun k _ => ?_) (Finset.sum_congr rfl fun k _ => ?_))
  · rw [transpose_ix2_apply]
    show (k0_pay13 (F := Ideal) (ix2 p k) * k0_pay12 (F := Ideal) x0 (ix2 p k)) * k0_pay10 (F := Ideal) x0 (ix2 p k)
        * k0_pay8 (F := Ideal) x1 (ix2 g k) = _
    rw [quarter_apply, sqneg_apply, spneg_apply, tgt_apply]
    rfl
  · rw [transpose_ix2_apply]
    show (Ideal.ofBits .f32 0x3F400000#32 * (k0_pay9 (F := Ideal) x0 (ix2 p k) * k0_pay9 (F := Ideal) x0 (ix2 p k)))
        * k0_pay11 (F := Ideal) x0 (ix2 p k) * (Ideal.ofBits .f32 0x3F800000#32 - k0_pay8 (F := Ideal) x1 (ix2 g k)) = _
    rw [prob_apply, sppos_apply, tgt_apply, Consts.w_one]
    rfl

/-- The dice total gains twice the tile's overlap of the sigmoid with the target. -/
theorem stepDice_apply (acc : Vec Ideal S100x20 .f32) (p : Fin 100) (g : Fin 20) :
    stepDice (F := Ideal) x0 x1 acc (ix2 p g)
      = acc (ix2 p g) + ((2 : ℝ) : EReal) * ∑ k : Fin 4096, prob (x0 (ix3 0 p k)) * x1 (ix3 0 g k) := by
  unfold stepDice k0_pay16
  rw [shapeCast_self]
  show acc (ix2 p g) + Ideal.ofBits .f32 0x40000000#32 * matmul (F := Ideal) _ none _ _ _ (ix2 p g) = _
  rw [PlainDot.matmul_zero_apply dot_S100x4096_S4096x20_S100x20_1_0_0_1_n_n rfl, Consts.w_two]
  refine congrArg (fun s => acc (ix2 p g) + ((2 : ℝ) : EReal) * s) (Finset.sum_congr rfl fun k _ => ?_)
  rw [transpose_ix2_apply]
  show k0_pay9 (F := Ideal) x0 (ix2 p k) * k0_pay8 (F := Ideal) x1 (ix2 g k) = _
  rw [prob_apply, tgt_apply]

/-- The probability mass gains the tile's row sum of the sigmoid, kept as a column. -/
theorem stepProb_apply (acc : Vec Ideal S100x1 .f32) (p : Fin 100) :
    stepProb (F := Ideal) x0 acc (ix2 p 0) = acc (ix2 p 0) + ∑ k : Fin 4096, prob (x0 (ix3 0 p k)) := by
  unfold stepProb k0_pay17
  rw [shapeCast_self]
  show acc (ix2 p 0) + shapeCast S100x1 (multiReduction .add [1] S100 (k0_pay9 (F := Ideal) x0) 0x00000000#32 _ _ _) _ (ix2 p 0) = _
  rw [Cert.Lib.Keepdims.shapeCast_a_a1_apply]
  refine congrArg (acc (ix2 p 0) + ·) ?_
  refine (Cert.Lib.Keepdims.laneSum_apply (k0_pay9 (F := Ideal) x0) 0x00000000#32 reduces_S100x4096_S100 (.inl rfl) rfl p).trans ?_
  exact Finset.sum_congr rfl fun k _ => prob_apply x0 p k

/-- The target mass gains the tile's row sum of the target, kept as a column. -/
theorem stepTgt_apply (acc : Vec Ideal S20x1 .f32) (g : Fin 20) :
    stepTgt (F := Ideal) x1 acc (ix2 g 0) = acc (ix2 g 0) + ∑ k : Fin 4096, x1 (ix3 0 g k) := by
  unfold stepTgt k0_pay1
  rw [shapeCast_self]
  show acc (ix2 g 0) + shapeCast S20x1 (multiReduction .add [1] S20 (k0_pay8 (F := Ideal) x1) 0x00000000#32 _ _ _) _ (ix2 g 0) = _
  rw [Cert.Lib.Keepdims.shapeCast_a_a1_apply]
  refine congrArg (acc (ix2 g 0) + ·) ?_
  refine (Cert.Lib.Keepdims.laneSum_apply (k0_pay8 (F := Ideal) x1) 0x00000000#32 reduces_S20x4096_S20 (.inl rfl) rfl g).trans ?_
  exact Finset.sum_congr rfl fun k _ => tgt_apply x1 g k

/-! ## The output block -/

/-- The output block from the four totals: the focal total times 2^-16, plus one minus (dice + 1) over
    (probability mass + target mass + 1); the target mass is transposed to a row, and both masses are spread over the
    block. The two factors 1.0 the source writes are the multiplicative unit. -/
theorem out_apply (s0 : Vec Ideal S100x20 .f32) (s2 : Vec Ideal S100x1 .f32) (s3 : Vec Ideal S20x1 .f32)
    (s1 : Vec Ideal S100x20 .f32) (p : Fin 100) (g : Fin 20) :
    k0_pay2 (F := Ideal) s0 s2 s3 s1 (ix3 0 p g)
      = s0 (ix2 p g) * ((1 / 65536 : ℝ) : EReal)
          + (1 - Ideal.div (s1 (ix2 p g) + 1) (s2 (ix2 p 0) + s3 (ix2 g 0) + 1)) := by
  unfold k0_pay2
  rw [shapeCast_ab_1ab_apply]
  show Ideal.ofBits .f32 0x3F800000#32 * (s0 (ix2 p g) * Ideal.ofBits .f32 0x37800000#32)
      + Ideal.ofBits .f32 0x3F800000#32 * (Ideal.ofBits .f32 0x3F800000#32
          - Ideal.div (s1 (ix2 p g) + Ideal.ofBits .f32 0x3F800000#32)
              ((broadcastTo S100x20 s2 _ (ix2 p g) + broadcastTo S100x20 (transpose S1x20 [1, 0] s3 _) _ (ix2 p g))
                + Ideal.ofBits .f32 0x3F800000#32)) = _
  rw [Cert.Lib.Keepdims.broadcastTo_a1_ab_apply, broadcastTo_1b_ab_apply, transpose_ix2_apply, Consts.w_one,
    Consts.w_inv_count, one_mul, one_mul]

end Cert.KernelIdeal.At

end
-- ==== Proof.KernelFold.lean ====
/-
  From the kernel's grid run to its result array.

  The grid has 64 points: point `n` works on batch `n / 16` and on pixel tile `n % 16`. The four running totals
  live in scratch memory carried from point to point: reset at each batch's first tile, stepped at every tile, and
  combined into the batch's output block at its last tile, the only point that writes the block back.

  Read through the two flattened arrays the region finds, a step at point `n` adds that point's partial sums
  (Proof/CostSpec.lean's `maskPart`, `dicePart`, `probPart`, `tgtPart`). So after a batch's last tile each total
  is zero plus its sixteen partial sums, the block written back is the tile-by-tile cost, and that is the cost.
  Block `b` of the result array is written exactly once, at point `16·b + 15`, and these four blocks cover the array.
-/
import proofs.«138303_j64415919505539_1_alg».proof.Proof.KernelAt
import proofs.«138303_j64415919505539_1_alg».proof.Proof.Gen.KernelIdeal.Value
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen Cert.KernelIdeal.Value Cert.KernelIdeal.Pieces Cert.KernelIdeal.At Cert.Cost

/-! ## At every float instance: each point steps each total -/

section AnyInstance

variable {F : FTy → Type} [FloatOps F]
variable (m : (ℓ : Loc nD τ sig) → Buf (Elt F) ℓ)

/-- At a batch's first tile the focal total is reset: one step from the zero block. -/
theorem scMask_first (c : Dev nD) (n : ℕ) (hb : n < cfg0.N) (h0 : n % 16 = 0) (acc : Vec F S100x20 .f32) :
    scAt0_0 m c n hb acc = stepMask (iblk m c 0 ⟨n, hb⟩) (iblk m c 1 ⟨n, hb⟩) k0_pay3 := by
  have h1 : ¬n % 16 = 15 := by omega
  unfold scAt0_0
  rw [dif_pos h0, dif_neg h1]
  exact first_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N))

/-- At every other tile the focal total is one step from what the tile before left. -/
theorem scMask_next (c : Dev nD) (n : ℕ) (hb : n < cfg0.N) (h0 : ¬n % 16 = 0) (acc : Vec F S100x20 .f32) :
    scAt0_0 m c n hb acc = stepMask (iblk m c 0 ⟨n, hb⟩) (iblk m c 1 ⟨n, hb⟩) acc := by
  unfold scAt0_0
  rw [dif_neg h0]
  by_cases h1 : n % 16 = 15
  · rw [dif_pos h1]
    exact last_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) acc _ _ _
  · rw [dif_neg h1]
    exact middle_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) acc _ _ _

/-- At a batch's first tile the dice total is reset: one step from the zero block. -/
theorem scDice_first (c : Dev nD) (n : ℕ) (hb : n < cfg0.N) (h0 : n % 16 = 0) (acc : Vec F S100x20 .f32) :
    scAt0_1 m c n hb acc = stepDice (iblk m c 0 ⟨n, hb⟩) (iblk m c 1 ⟨n, hb⟩) k0_pay4 := by
  have h1 : ¬n % 16 = 15 := by omega
  unfold scAt0_1
  rw [dif_pos h0, dif_neg h1]
  exact first_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N))

/-- At every other tile the dice total is one step from what the tile before left. -/
theorem scDice_next (c : Dev nD) (n : ℕ) (hb : n < cfg0.N) (h0 : ¬n % 16 = 0) (acc : Vec F S100x20 .f32) :
    scAt0_1 m c n hb acc = stepDice (iblk m c 0 ⟨n, hb⟩) (iblk m c 1 ⟨n, hb⟩) acc := by
  unfold scAt0_1
  rw [dif_neg h0]
  by_cases h1 : n % 16 = 15
  · rw [dif_pos h1]
    exact last_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ acc _ _
  · rw [dif_neg h1]
    exact middle_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ acc _ _

/-- At a batch's first tile the probability mass is reset: one step from the zero block. -/
theorem scProb_first (c : Dev nD) (n : ℕ) (hb : n < cfg0.N) (h0 : n % 16 = 0) (acc : Vec F S100x1 .f32) :
    scAt0_2 m c n hb acc = stepProb (iblk m c 0 ⟨n, hb⟩) k0_pay5 := by
  have h1 : ¬n % 16 = 15 := by omega
  unfold scAt0_2
  rw [dif_pos h0, dif_neg h1]
  exact first_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N))

/-- At every other tile the probability mass is one step from what the tile before left. -/
theorem scProb_next (c : Dev nD) (n : ℕ) (hb : n < cfg0.N) (h0 : ¬n % 16 = 0) (acc : Vec F S100x1 .f32) :
    scAt0_2 m c n hb acc = stepProb (iblk m c 0 ⟨n, hb⟩) acc := by
  unfold scAt0_2
  rw [dif_neg h0]
  by_cases h1 : n % 16 = 15
  · rw [dif_pos h1]
    exact last_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ _ acc _
  · rw [dif_neg h1]
    exact middle_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ _ acc _

/-- At a batch's first tile the target mass is reset: one step from the zero block. -/
theorem scTgt_first (c : Dev nD) (n : ℕ) (hb : n < cfg0.N) (h0 : n % 16 = 0) (acc : Vec F S20x1 .f32) :
    scAt0_3 m c n hb acc = stepTgt (iblk m c 1 ⟨n, hb⟩) k0_pay6 := by
  have h1 : ¬n % 16 = 15 := by omega
  unfold scAt0_3
  rw [dif_pos h0, dif_neg h1]
  exact first_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N))

/-- At every other tile the target mass is one step from what the tile before left. -/
theorem scTgt_next (c : Dev nD) (n : ℕ) (hb : n < cfg0.N) (h0 : ¬n % 16 = 0) (acc : Vec F S20x1 .f32) :
    scAt0_3 m c n hb acc = stepTgt (iblk m c 1 ⟨n, hb⟩) acc := by
  unfold scAt0_3
  rw [dif_neg h0]
  by_cases h1 : n % 16 = 15
  · rw [dif_pos h1]
    exact last_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ _ _ acc
  · rw [dif_neg h1]
    exact middle_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) scM0_2 (Memref.isWhole_whole _) scM0_3 (Memref.isWhole_whole _) _ _ (iblk m c 0 (⟨n, hb⟩ : Fin cfg0.N)) (iblk m c 1 (⟨n, hb⟩ : Fin cfg0.N)) _ _ _ acc

/-- At a batch's last tile the output block is the final combination of the four totals as that point leaves them. -/
theorem out_last (c : Dev nD) (t : Fin cfg0.N) (h0 : ¬t.val % 16 = 0) (h1 : t.val % 16 = 15) :
    (outsAt0 m c t.val t.isLt).1
      = k0_pay2 (outsAt0 m c t.val t.isLt).2.1 (outsAt0 m c t.val t.isLt).2.2.2.1 (outsAt0 m c t.val t.isLt).2.2.2.2
          (outsAt0 m c t.val t.isLt).2.2.1 := by
  rw [outsAt0_C m c t h0 h1]
  dsimp only
  rw [last_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) _ _ (iblk m c 0 t) (iblk m c 1 t) _ _ _ _,
    last_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) _ _ (iblk m c 0 t) (iblk m c 1 t) _ _ _ _,
    last_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) _ _ (iblk m c 0 t) (iblk m c 1 t) _ _ _ _,
    last_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) _ _ (iblk m c 0 t) (iblk m c 1 t) _ _ _ _,
    last_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) _ _ (iblk m c 0 t) (iblk m c 1 t) _ _ _ _]

end AnyInstance

/-! ## Over the extended reals -/

variable (m : (ℓ : Loc nD τ sig) → Buf (Elt Ideal) ℓ)

/-- The logits as the region finds them: flattened to one pixel axis. -/
abbrev XA (c : Dev nD) : Cost.SX.Idx → EReal := V m c main_v0
/-- The target masks as the region finds them: flattened to one pixel axis. -/
abbrev TA (c : Dev nD) : Cost.ST.Idx → EReal := V m c main_v1

/-- The windows' index maps, decided over the grid: at point `t` the two inputs sit at batch `t / 16`, tile `t % 16`;
    the output at batch `t / 16`. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0 :=
  (by decide +kernel : ∀ t : Fin grid0.N, _)

/-- Point `t`'s block of logits reads the flattened array at batch `t / 16`, pixels `4096·(t % 16) + k`. -/
theorem logitsBlock_apply (c : Dev nD) (t : Fin cfg0.N) (p : Fin 100) (k : Fin 4096) :
    (iblk m c 0 t : Vec Ideal S1x100x4096 .f32) (ix3 0 p k) = XA m c (ix3 (bat t.val) p (pix t.val k)) := by
  obtain ⟨e0, e1, e2, -⟩ := idx_facts t
  have hN : t.val < 64 := lt_of_lt_of_eq t.isLt N_0
  show V m c main_v0 (((cfg0.win 0).blk t).view.emb (ix3 0 p k)) = V m c main_v0 (ix3 (bat t.val) p (pix t.val k))
  refine congrArg (XA m c) (funext fun a => Fin.ext ?_)
  match a with
  | ⟨0, _⟩ => show win0_0.index t (0 : Fin 3) * 1 + 1 * 0 = t.val / 16 % 4; omega
  | ⟨1, _⟩ => show win0_0.index t (1 : Fin 3) * 100 + 1 * p.val = p.val; omega
  | ⟨2, _⟩ => show win0_0.index t (2 : Fin 3) * 4096 + 1 * k.val = 4096 * (t.val % 16) + k.val; omega

/-- Point `t`'s block of target masks likewise. -/
theorem tgtBlock_apply (c : Dev nD) (t : Fin cfg0.N) (g : Fin 20) (k : Fin 4096) :
    (iblk m c 1 t : Vec Ideal S1x20x4096 .f32) (ix3 0 g k) = TA m c (ix3 (bat t.val) g (pix t.val k)) := by
  obtain ⟨-, -, -, e0, e1, e2, -⟩ := idx_facts t
  have hN : t.val < 64 := lt_of_lt_of_eq t.isLt N_0
  show V m c main_v1 (((cfg0.win 1).blk t).view.emb (ix3 0 g k)) = V m c main_v1 (ix3 (bat t.val) g (pix t.val k))
  refine congrArg (TA m c) (funext fun a => Fin.ext ?_)
  match a with
  | ⟨0, _⟩ => show win0_1.index t (0 : Fin 3) * 1 + 1 * 0 = t.val / 16 % 4; omega
  | ⟨1, _⟩ => show win0_1.index t (1 : Fin 3) * 20 + 1 * g.val = g.val; omega
  | ⟨2, _⟩ => show win0_1.index t (2 : Fin 3) * 4096 + 1 * k.val = 4096 * (t.val % 16) + k.val; omega

/-! ### A step at point `n` adds that point's partial sums -/

theorem maskStep_point (c : Dev nD) (n : ℕ) (hb : n < cfg0.N) (acc : Vec Ideal S100x20 .f32) (p : Fin 100) (g : Fin 20) :
    stepMask (F := Ideal) (iblk m c 0 ⟨n, hb⟩) (iblk m c 1 ⟨n, hb⟩) acc (ix2 p g)
      = acc (ix2 p g) + maskPart (XA m c) (TA m c) n p g := by
  refine (stepMask_apply (iblk m c 0 ⟨n, hb⟩) (iblk m c 1 ⟨n, hb⟩) acc p g).trans ?_
  unfold maskPart
  refine congrArg (acc (ix2 p g) + ·) (congrArg₂ (· + ·) (Finset.sum_congr rfl fun k _ => ?_) (Finset.sum_congr rfl fun k _ => ?_))
  · rw [logitsBlock_apply m c ⟨n, hb⟩ p k, tgtBlock_apply m c ⟨n, hb⟩ g k]
  · rw [logitsBlock_apply m c ⟨n, hb⟩ p k, tgtBlock_apply m c ⟨n, hb⟩ g k]

theorem diceStep_point (c : Dev nD) (n : ℕ) (hb : n < cfg0.N) (acc : Vec Ideal S100x20 .f32) (p : Fin 100) (g : Fin 20) :
    stepDice (F := Ideal) (iblk m c 0 ⟨n, hb⟩) (iblk m c 1 ⟨n, hb⟩) acc (ix2 p g)
      = acc (ix2 p g) + dicePart (XA m c) (TA m c) n p g := by
  refine (stepDice_apply (iblk m c 0 ⟨n, hb⟩) (iblk m c 1 ⟨n, hb⟩) acc p g).trans ?_
  unfold dicePart
  refine congrArg (fun s => acc (ix2 p g) + ((2 : ℝ) : EReal) * s) (Finset.sum_congr rfl fun k _ => ?_)
  rw [logitsBlock_apply m c ⟨n, hb⟩ p k, tgtBlock_apply m c ⟨n, hb⟩ g k]

theorem probStep_point (c : Dev nD) (n : ℕ) (hb : n < cfg0.N) (acc : Vec Ideal S100x1 .f32) (p : Fin 100) :
    stepProb (F := Ideal) (iblk m c 0 ⟨n, hb⟩) acc (ix2 p 0) = acc (ix2 p 0) + probPart (XA m c) n p := by
  refine (stepProb_apply (iblk m c 0 ⟨n, hb⟩) acc p).trans ?_
  unfold probPart
  refine congrArg (acc (ix2 p 0) + ·) (Finset.sum_congr rfl fun k _ => ?_)
  rw [logitsBlock_apply m c ⟨n, hb⟩ p k]

theorem tgtStep_point (c : Dev nD) (n : ℕ) (hb : n < cfg0.N) (acc : Vec Ideal S20x1 .f32) (g : Fin 20) :
    stepTgt (F := Ideal) (iblk m c 1 ⟨n, hb⟩) acc (ix2 g 0) = acc (ix2 g 0) + tgtPart (TA m c) n g := by
  refine (stepTgt_apply (iblk m c 1 ⟨n, hb⟩) acc g).trans ?_
  unfold tgtPart
  refine congrArg (acc (ix2 g 0) + ·) (Finset.sum_congr rfl fun k _ => ?_)
  rw [tgtBlock_apply m c ⟨n, hb⟩ g k]

/-! ### Each total after a point: zero plus the partial sums of its batch so far -/

theorem maskTotal (c : Dev nD) (t : Fin cfg0.N) (p : Fin 100) (g : Fin 20) :
    (outsAt0 m c t.val t.isLt).2.1 (ix2 p g)
      = 0 + ∑ s ∈ Finset.range (t.val % 16 + 1), maskPart (XA m c) (TA m c) (16 * (t.val / 16) + s) p g := by
  have hN : t.val < 64 := lt_of_lt_of_eq t.isLt N_0
  rw [soutsAt0_0_eq m c t]
  exact Pipeline.accAt_add_apply (ι := S100x20.Idx) (β := EReal) _ _ (fun _ => 0)
    (fun n i => maskPart (XA m c) (TA m c) n (i 0) (i 1)) (16 * (t.val / 16)) 15
    (fun h i => by
      obtain ⟨p', g', rfl⟩ : ∃ (p' : Fin 100) (g' : Fin 20), i = ix2 p' g' := ⟨i 0, i 1, eq_ix2 i⟩
      show scAt0_0 m c (16 * (t.val / 16)) h _ (ix2 p' g') = 0 + maskPart (XA m c) (TA m c) (16 * (t.val / 16)) p' g'
      rw [scMask_first m c (16 * (t.val / 16)) h (by omega)]
      refine (maskStep_point m c (16 * (t.val / 16)) h (k0_pay3 (F := Ideal)) p' g').trans ?_
      rw [zeroMask_apply])
    (fun n h acc i hlt hle => by
      obtain ⟨p', g', rfl⟩ : ∃ (p' : Fin 100) (g' : Fin 20), i = ix2 p' g' := ⟨i 0, i 1, eq_ix2 i⟩
      show scAt0_0 m c n h acc (ix2 p' g') = acc (ix2 p' g') + maskPart (XA m c) (TA m c) n p' g'
      rw [scMask_next m c n h (by omega) acc]
      exact maskStep_point m c n h acc p' g')
    (t.val % 16) (by omega) _ (ix2 p g)

theorem diceTotal (c : Dev nD) (t : Fin cfg0.N) (p : Fin 100) (g : Fin 20) :
    (outsAt0 m c t.val t.isLt).2.2.1 (ix2 p g)
      = 0 + ∑ s ∈ Finset.range (t.val % 16 + 1), dicePart (XA m c) (TA m c) (16 * (t.val / 16) + s) p g := by
  have hN : t.val < 64 := lt_of_lt_of_eq t.isLt N_0
  rw [soutsAt0_1_eq m c t]
  exact Pipeline.accAt_add_apply (ι := S100x20.Idx) (β := EReal) _ _ (fun _ => 0)
    (fun n i => dicePart (XA m c) (TA m c) n (i 0) (i 1)) (16 * (t.val / 16)) 15
    (fun h i => by
      obtain ⟨p', g', rfl⟩ : ∃ (p' : Fin 100) (g' : Fin 20), i = ix2 p' g' := ⟨i 0, i 1, eq_ix2 i⟩
      show scAt0_1 m c (16 * (t.val / 16)) h _ (ix2 p' g') = 0 + dicePart (XA m c) (TA m c) (16 * (t.val / 16)) p' g'
      rw [scDice_first m c (16 * (t.val / 16)) h (by omega)]
      refine (diceStep_point m c (16 * (t.val / 16)) h (k0_pay4 (F := Ideal)) p' g').trans ?_
      rw [zeroDice_apply])
    (fun n h acc i hlt hle => by
      obtain ⟨p', g', rfl⟩ : ∃ (p' : Fin 100) (g' : Fin 20), i = ix2 p' g' := ⟨i 0, i 1, eq_ix2 i⟩
      show scAt0_1 m c n h acc (ix2 p' g') = acc (ix2 p' g') + dicePart (XA m c) (TA m c) n p' g'
      rw [scDice_next m c n h (by omega) acc]
      exact diceStep_point m c n h acc p' g')
    (t.val % 16) (by omega) _ (ix2 p g)

theorem probTotal (c : Dev nD) (t : Fin cfg0.N) (p : Fin 100) :
    (outsAt0 m c t.val t.isLt).2.2.2.1 (ix2 p 0)
      = 0 + ∑ s ∈ Finset.range (t.val % 16 + 1), probPart (XA m c) (16 * (t.val / 16) + s) p := by
  have hN : t.val < 64 := lt_of_lt_of_eq t.isLt N_0
  rw [soutsAt0_2_eq m c t]
  exact Pipeline.accAt_add_apply (ι := S100x1.Idx) (β := EReal) _ _ (fun _ => 0)
    (fun n i => probPart (XA m c) n (i 0)) (16 * (t.val / 16)) 15
    (fun h i => by
      obtain ⟨p', u, rfl⟩ : ∃ (p' : Fin 100) (u : Fin 1), i = ix2 p' u := ⟨i 0, i 1, eq_ix2 i⟩
      obtain rfl : u = 0 := Subsingleton.elim _ _
      show scAt0_2 m c (16 * (t.val / 16)) h _ (ix2 p' 0) = 0 + probPart (XA m c) (16 * (t.val / 16)) p'
      rw [scProb_first m c (16 * (t.val / 16)) h (by omega)]
      refine (probStep_point m c (16 * (t.val / 16)) h (k0_pay5 (F := Ideal)) p').trans ?_
      rw [zeroProb_apply])
    (fun n h acc i hlt hle => by
      obtain ⟨p', u, rfl⟩ : ∃ (p' : Fin 100) (u : Fin 1), i = ix2 p' u := ⟨i 0, i 1, eq_ix2 i⟩
      obtain rfl : u = 0 := Subsingleton.elim _ _
      show scAt0_2 m c n h acc (ix2 p' 0) = acc (ix2 p' 0) + probPart (XA m c) n p'
      rw [scProb_next m c n h (by omega) acc]
      exact probStep_point m c n h acc p')
    (t.val % 16) (by omega) _ (ix2 p 0)

theorem tgtTotal (c : Dev nD) (t : Fin cfg0.N) (g : Fin 20) :
    (outsAt0 m c t.val t.isLt).2.2.2.2 (ix2 g 0)
      = 0 + ∑ s ∈ Finset.range (t.val % 16 + 1), tgtPart (TA m c) (16 * (t.val / 16) + s) g := by
  have hN : t.val < 64 := lt_of_lt_of_eq t.isLt N_0
  rw [soutsAt0_3_eq m c t]
  exact Pipeline.accAt_add_apply (ι := S20x1.Idx) (β := EReal) _ _ (fun _ => 0)
    (fun n i => tgtPart (TA m c) n (i 0)) (16 * (t.val / 16)) 15
    (fun h i => by
      obtain ⟨g', u, rfl⟩ : ∃ (g' : Fin 20) (u : Fin 1), i = ix2 g' u := ⟨i 0, i 1, eq_ix2 i⟩
      obtain rfl : u = 0 := Subsingleton.elim _ _
      show scAt0_3 m c (16 * (t.val / 16)) h _ (ix2 g' 0) = 0 + tgtPart (TA m c) (16 * (t.val / 16)) g'
      rw [scTgt_first m c (16 * (t.val / 16)) h (by omega)]
      refine (tgtStep_point m c (16 * (t.val / 16)) h (k0_pay6 (F := Ideal)) g').trans ?_
      rw [zeroTgt_apply])
    (fun n h acc i hlt hle => by
      obtain ⟨g', u, rfl⟩ : ∃ (g' : Fin 20) (u : Fin 1), i = ix2 g' u := ⟨i 0, i 1, eq_ix2 i⟩
      obtain rfl : u = 0 := Subsingleton.elim _ _
      show scAt0_3 m c n h acc (ix2 g' 0) = acc (ix2 g' 0) + tgtPart (TA m c) n g'
      rw [scTgt_next m c n h (by omega) acc]
      exact tgtStep_point m c n h acc g')
    (t.val % 16) (by omega) _ (ix2 g 0)

/-! ## The result array -/

/-- The cost matrix of every batch, over the flattened arrays the region finds. -/
def costArray (c : Dev nD) : S4x100x20.Idx → EReal := fun i => cost (XA m c) (TA m c) (i 0) (i 1) (i 2)

/-- What a batch's last tile writes back is that batch's block of the cost matrix. -/
theorem flushed_eq (c : Dev nD) (t : Fin cfg0.N) (hf : (cfg0.win 2).flush t = true) :
    (dats m 0 c).flushed 2 t = ((cfg0.win 2).blk t).view.read (Elt Ideal) (costArray m c) := by
  have h1 : t.val % 16 = 15 := (flush0_2 t).mp hf
  have h0 : ¬t.val % 16 = 0 := by omega
  have hN : t.val < 64 := lt_of_lt_of_eq t.isLt N_0
  have hq : t.val / 16 < 4 := by omega
  obtain ⟨-, -, -, -, -, -, e0, e1, e2⟩ := idx_facts t
  rw [flushed2 m c t, out_last m c t h0 h1]
  refine funext fun (j : S1x100x20.Idx) => ?_
  obtain ⟨u, p, g, rfl⟩ : ∃ (u : Fin 1) (p : Fin 100) (g : Fin 20), j = ix3 u p g := ⟨j 0, j 1, j 2, eq_ix3 j⟩
  obtain rfl : u = 0 := Subsingleton.elim _ _
  show k0_pay2 (F := Ideal) _ _ _ _ (ix3 0 p g) = costArray m c (((cfg0.win 2).blk t).view.emb (ix3 0 p g))
  rw [out_apply, maskTotal m c t p g, diceTotal m c t p g, probTotal m c t p, tgtTotal m c t g, h1]
  refine (tiledCost_eq (XA m c) (TA m c) (t.val / 16) hq p g).trans ?_
  have ea : (⟨t.val / 16, hq⟩ : Fin 4) = (((cfg0.win 2).blk t).view.emb (ix3 0 p g)) 0 :=
    Fin.ext (by show t.val / 16 = win0_2.index t (0 : Fin 3) * 1 + 1 * 0; omega)
  have eb : p = (((cfg0.win 2).blk t).view.emb (ix3 0 p g)) 1 :=
    Fin.ext (by show p.val = win0_2.index t (1 : Fin 3) * 100 + 1 * p.val; omega)
  have ec : g = (((cfg0.win 2).blk t).view.emb (ix3 0 p g)) 2 :=
    Fin.ext (by show g.val = win0_2.index t (2 : Fin 3) * 20 + 1 * g.val; omega)
  exact congr (congr (congrArg (cost (XA m c) (TA m c)) ea) eb) ec

/-- An index of the result array lies in point `t`'s block iff each coordinate lies in the block's range. -/
theorem mem_blk (t : Fin cfg0.N) (i : S4x100x20.Idx) :
    i ∈ ((cfg0.win 2).blk t).view.set ↔ ∀ a : Fin 3, win0_2.index t a * S1x100x20.size a ≤ (i a).val
      ∧ (i a).val < win0_2.index t a * S1x100x20.size a + S1x100x20.size a := by
  show i ∈ ((View.whole main_v2).slice (win0_2.rect t)).set ↔ _
  rw [View.set_slice_whole, Rect.mem_set_unit]
  exact Iff.rfl

/-- Every index of the result array lies in the block some batch's last tile writes back. -/
theorem cover (i : S4x100x20.Idx) : ∃ t : Fin cfg0.N, (cfg0.win 2).flush t = true ∧ i ∈ ((cfg0.win 2).blk t).view.set := by
  have hi0 : (i 0).val < 4 := (i 0).isLt
  have hi1 : (i 1).val < 100 := (i 1).isLt
  have hi2 : (i 2).val < 20 := (i 2).isLt
  have hlt : 16 * (i 0).val + 15 < cfg0.N := by rw [show cfg0.N = 64 from N_0]; omega
  obtain ⟨-, -, -, -, -, -, e0, e1, e2⟩ := idx_facts ⟨16 * (i 0).val + 15, hlt⟩
  have hv : (⟨16 * (i 0).val + 15, hlt⟩ : Fin cfg0.N).val = 16 * (i 0).val + 15 := rfl
  rw [hv] at e0
  refine ⟨⟨16 * (i 0).val + 15, hlt⟩, (flush0_2 _).mpr (by rw [hv]; omega), ?_⟩
  rw [mem_blk]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    omega
  | ⟨1, _⟩ =>
    show win0_2.index ⟨16 * (i 0).val + 15, hlt⟩ (1 : Fin 3) * 100 ≤ (i 1).val
      ∧ (i 1).val < win0_2.index ⟨16 * (i 0).val + 15, hlt⟩ (1 : Fin 3) * 100 + 100
    omega
  | ⟨2, _⟩ =>
    show win0_2.index ⟨16 * (i 0).val + 15, hlt⟩ (2 : Fin 3) * 20 ≤ (i 2).val
      ∧ (i 2).val < win0_2.index ⟨16 * (i 0).val + 15, hlt⟩ (2 : Fin 3) * 20 + 20
    omega

/-- After the run the result array is the cost matrix. -/
theorem final (c : Dev nD) : (dats m 0 c).arrAt 2 cfg0.N = costArray m c :=
  (dats m 0 c).arrAt_eq_of_cover 2 (costArray m c) (flushed_eq m c) (cover)

/-- The flattened logits are the reshape of the first argument … -/
theorem XA_eq (c : Dev nD) :
    XA m c = shapeCast S4x100x65536 (m ((c : Thread nD τ).loc main_arg0)) shapeCasts_S4x100x256x256_S4x100x65536 := by
  show (V m c main_v0 : S4x100x65536.Idx → EReal) = _
  dsimp only [V, hostOps0]
  after_results
  rfl

/-- … and the flattened target masks the reshape of the second. -/
theorem TA_eq (c : Dev nD) :
    TA m c = shapeCast S4x20x65536 (m ((c : Thread nD τ).loc main_arg1)) shapeCasts_S4x20x256x256_S4x20x65536 := by
  show (V m c main_v1 : S4x20x65536.Idx → EReal) = _
  dsimp only [V, hostOps0]
  after_results
  rfl

/-- The kernel's run, read: the result array ends at the cost matrix, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v2) = costArray m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Fold

end
-- ==== Proof.RefCost.lean ====
/-
  The reference program computes the cost.

  Read one operation at a time, the reference's result at batch `b`, prediction `p`, target `g` is the cost of
  Proof/CostSpec.lean over its own two flattened arrays: the sigmoid is spelled `1 / (1 + e^(-x))`, the softplus
  `max y 0 + log(1 + e^(-|y|))` behind a test that never fires on an extended real, the squares as the real power 2
  of a real base, the three contractions and the two row sums as sums over the 65536 pixels, and the whole combined as
  focal / 65536 + 1 - (2·overlap + 1) / (mass_p + mass_t + 1).
-/
import proofs.«138303_j64415919505539_1_alg».proof.Proof.Gen.ReferenceIdeal.Read
import proofs.«138303_j64415919505539_1_alg».proof.Proof.CostSpec

noncomputable section

namespace Cert.ReferenceIdeal.RefCost

open Cert.ReferenceIdeal Cert.ReferenceIdeal.Read Idealize.ShloMosaic Idealize.ShloMosaic.ValueIdx Cert.Cost

variable (x0 : (⟨S4x100x256x256, .f32⟩ : BufTy).Contents (Elt Ideal)) (x1 : (⟨S4x20x256x256, .f32⟩ : BufTy).Contents (Elt Ideal))

/-! ## Pointwise: the sigmoid, the two softplus values, the two focal weights -/

theorem prob_eq (i : S4x100x65536.Idx) : val_main_v7 (F := Ideal) x0 i = prob (val_main_v0 (F := Ideal) x0 i) := by
  simp only [val_main_v7_apply, val_main_v6_apply, val_main_cst_0_apply, val_main_v5_apply, val_main_v4_apply, val_main_cst_apply, val_main_v3_apply, val_main_v2_apply,
    Ideal.hostDivf_def, Ideal.addf_def, Ideal.hostUnary_exp_def, Ideal.hostNegf_def, Ideal.negf_def, Ideal.ofBits_def, Consts.w_one]
  rfl

theorem sp_neg_eq (i : S4x100x65536.Idx) : val_main_v9 (F := Ideal) x0 i = sp (-(val_main_v0 (F := Ideal) x0 i)) := by
  simp only [val_main_v9_apply, val_main_call0_v4_apply, val_main_call0_v6_apply, val_main_call0_v11_apply, val_main_call0_v1_apply, val_main_call0_v10_apply, val_main_call0_v9_apply, val_main_call0_v8_apply, val_main_call0_v7_apply, val_main_call0_v3_apply, val_main_call0_v0_apply, val_main_call0_v2_apply, val_main_call0_v5_apply, val_main_call0_cst_apply, val_main_v8_apply,
    Ideal.addf_def, Ideal.subf_def, Ideal.maximumf_def, Ideal.hostUnary_exp_def, Ideal.hostUnary_log1p_def, Ideal.hostNegf_def,
    Ideal.hostAbsf_def, Ideal.negf_def, Ideal.ofBits_def, Consts.w_zero, absf_eq, cmpf_eq, sub_zero, add_zero, cmp_une_self,
    select_zero]
  rfl

theorem sp_pos_eq (i : S4x100x65536.Idx) : val_main_v10 (F := Ideal) x0 i = sp (val_main_v0 (F := Ideal) x0 i) := by
  simp only [val_main_v10_apply, val_main_call1_v4_apply, val_main_call1_v6_apply, val_main_call1_v11_apply, val_main_call1_v1_apply, val_main_call1_v10_apply, val_main_call1_v9_apply, val_main_call1_v8_apply, val_main_call1_v7_apply, val_main_call1_v3_apply, val_main_call1_v0_apply, val_main_call1_v2_apply, val_main_call1_v5_apply, val_main_call1_cst_apply,
    Ideal.addf_def, Ideal.subf_def, Ideal.maximumf_def, Ideal.hostUnary_exp_def, Ideal.hostUnary_log1p_def, Ideal.hostNegf_def,
    Ideal.hostAbsf_def, Ideal.negf_def, Ideal.ofBits_def, Consts.w_zero, absf_eq, cmpf_eq, sub_zero, add_zero, cmp_une_self,
    select_zero]
  rfl

theorem fpos_eq (i : S4x100x65536.Idx) : val_main_v17 (F := Ideal) x0 i = fpos (val_main_v0 (F := Ideal) x0 i) := by
  simp only [val_main_v17_apply, val_main_v16_apply, val_main_v15_apply, val_main_cst_3_apply, val_main_v14_apply, val_main_v13_apply, val_main_cst_2_apply, val_main_v12_apply, val_main_v11_apply, val_main_cst_1_apply, prob_eq, sp_neg_eq,
    Ideal.mulf_def, Ideal.subf_def, Ideal.hostPowf_def, Ideal.ofBits_def, Consts.w_one, Consts.w_two, pow_two_one_sub_prob]
  rfl

theorem fneg_eq (i : S4x100x65536.Idx) : val_main_v22 (F := Ideal) x0 i = fneg (val_main_v0 (F := Ideal) x0 i) := by
  simp only [val_main_v22_apply, val_main_v21_apply, val_main_v20_apply, val_main_cst_5_apply, val_main_v19_apply, val_main_v18_apply, val_main_cst_4_apply, prob_eq, sp_pos_eq,
    Ideal.mulf_def, Ideal.hostPowf_def, Ideal.ofBits_def, Consts.w_two, pow_two_prob]
  rfl

/-! ## The sums over the pixels -/

theorem mask_eq (b : Fin 4) (p : Fin 100) (g : Fin 20) :
    val_main_v27 (F := Ideal) x0 x1 (ix3 b p g)
      = maskSum (val_main_v0 (F := Ideal) x0) (val_main_v1 (F := Ideal) x1) b p g := by
  have l1 : ∀ k, lidx_main_v23 (ix3 b p g) k = ix3 b p k := fun k => funext fun a => by
    match a with | ⟨0, _⟩ => rfl | ⟨1, _⟩ => rfl | ⟨2, _⟩ => rfl
  have r1 : ∀ k, ridx_main_v23 (ix3 b p g) k = ix3 b g k := fun k => funext fun a => by
    match a with | ⟨0, _⟩ => rfl | ⟨1, _⟩ => rfl | ⟨2, _⟩ => rfl
  have l2 : ∀ k, lidx_main_v26 (ix3 b p g) k = ix3 b p k := fun k => funext fun a => by
    match a with | ⟨0, _⟩ => rfl | ⟨1, _⟩ => rfl | ⟨2, _⟩ => rfl
  have r2 : ∀ k, ridx_main_v26 (ix3 b p g) k = ix3 b g k := fun k => funext fun a => by
    match a with | ⟨0, _⟩ => rfl | ⟨1, _⟩ => rfl | ⟨2, _⟩ => rfl
  rw [val_main_v27_apply, val_main_v23_apply, val_main_v26_apply]
  simp only [l1, r1, l2, r2, fpos_eq, fneg_eq, val_main_v25_apply, val_main_v24_apply, val_main_cst_6_apply, Ideal.subf_def, Ideal.addf_def, Ideal.ofBits_def,
    Consts.w_one]
  rfl

theorem dice_eq (b : Fin 4) (p : Fin 100) (g : Fin 20) :
    val_main_v30 (F := Ideal) x0 x1 (ix3 b p g)
      = diceSum (val_main_v0 (F := Ideal) x0) (val_main_v1 (F := Ideal) x1) b p g := by
  have l1 : ∀ k, lidx_main_v30 (ix3 b p g) k = ix3 b p k := fun k => funext fun a => by
    match a with | ⟨0, _⟩ => rfl | ⟨1, _⟩ => rfl | ⟨2, _⟩ => rfl
  have r1 : ∀ k, ridx_main_v30 (ix3 b p g) k = ix3 b g k := fun k => funext fun a => by
    match a with | ⟨0, _⟩ => rfl | ⟨1, _⟩ => rfl | ⟨2, _⟩ => rfl
  rw [val_main_v30_apply]
  simp only [l1, r1, prob_eq]
  rfl

theorem psum_eq (b : Fin 4) (p : Fin 100) (g : Fin 20) :
    val_main_v37 (F := Ideal) x0 (ix3 b p g) = 0 + probSum (val_main_v0 (F := Ideal) x0) b p := by
  have e : ∀ k, idx_main_v33 (idx_main_v34 (idx_main_v37 (ix3 b p g))) k = ix3 b p k := fun k => funext fun a => by
    match a with | ⟨0, _⟩ => rfl | ⟨1, _⟩ => rfl | ⟨2, _⟩ => rfl
  rw [val_main_v37_apply, val_main_v34_apply, val_main_v33_apply]
  simp only [e, prob_eq, val_main_cst_9_apply, Ideal.ofBits_def, Consts.w_zero]
  rfl

theorem tsum_eq (b : Fin 4) (p : Fin 100) (g : Fin 20) :
    val_main_v38 (F := Ideal) x1 (ix3 b p g) = 0 + tgtSum (val_main_v1 (F := Ideal) x1) b g := by
  have e : ∀ k, idx_main_v35 (idx_main_v36 (idx_main_v38 (ix3 b p g))) k = ix3 b g k := fun k => funext fun a => by
    match a with | ⟨0, _⟩ => rfl | ⟨1, _⟩ => rfl | ⟨2, _⟩ => rfl
  rw [val_main_v38_apply, val_main_v36_apply, val_main_v35_apply]
  simp only [e, val_main_cst_10_apply, Ideal.ofBits_def, Consts.w_zero]
  rfl

/-! ## The result -/

/-- The reference's result at `(b, p, g)` is the cost over its two flattened arrays. -/
theorem result_eq (b : Fin 4) (p : Fin 100) (g : Fin 20) :
    val_main_v51 (F := Ideal) x0 x1 (ix3 b p g)
      = cost (val_main_v0 (F := Ideal) x0) (val_main_v1 (F := Ideal) x1) b p g := by
  simp only [val_main_v51_apply, val_main_v48_apply, val_main_v47_apply, val_main_cst_14_apply, val_main_v29_apply, val_main_v28_apply, val_main_cst_7_apply, val_main_v50_apply, val_main_v49_apply, val_main_cst_15_apply, val_main_v46_apply, val_main_v45_apply, val_main_cst_13_apply, val_main_v44_apply, val_main_v41_apply, val_main_v32_apply, val_main_v31_apply, val_main_cst_8_apply, val_main_v40_apply, val_main_cst_11_apply, val_main_v43_apply, val_main_v39_apply, val_main_v42_apply, val_main_cst_12_apply,
    mask_eq, dice_eq, psum_eq, tsum_eq,
    Ideal.mulf_def, Ideal.addf_def, Ideal.subf_def, Ideal.hostDivf_def, Ideal.ofBits_def,
    Consts.w_one, Consts.w_two, Consts.w_count, one_mul, zero_add]
  rfl

end Cert.ReferenceIdeal.RefCost

end
-- ==== Proof.lean ====
/-
  The kernel computes, for each of 4 batches, the 100 × 20 matrix of matching costs between predicted and target
  masks, and so does the reference: on the extended reals the two result arrays are equal entry by entry.

  Entry (b, p, g) is, with x the 65536 logits of prediction p and t the target mask g (both in batch b), σ the
  sigmoid and sp the softplus,

      ( Σ_c 0.25·(1-σ x_c)²·sp(-x_c)·t_c + Σ_c 0.75·(σ x_c)²·sp(x_c)·(1-t_c) ) / 65536
        + 1 - (2·Σ_c σ x_c·t_c + 1) / (Σ_c σ x_c + Σ_c t_c + 1)                       (Proof/CostSpec.lean).

  The reference computes it as written (Proof/RefCost.lean). The kernel walks the pixels in 16 tiles of 4096,
  keeps four running totals in scratch memory across the tiles of a batch, and writes the batch's block at its last
  tile (Proof/KernelPieces.lean: what one tile does to each total; Proof/KernelAt.lean: that arithmetic at an index;
  Proof/KernelFold.lean: the totals after the last tile, the block written back, the whole array). The two agree
  because finite sums of extended reals regroup freely, the factor 2 of the dice numerator is a nonnegative real
  and so distributes over the sum of the tiles, the kernel's 2^-16 is exactly 1/65536, the sigmoid is always a real
  number so that its real power 2 is its product with itself, and neither program's NaN test can fire
  (Proof/SumLaws.lean, Proof/CostSpec.lean). No step needs the inputs to be finite.

  The idealization rewrote nothing, so its conjunct is trivial. The three frames are the generated ones; the
  reference's is its generated run with the result dropped.
-/
import proofs.«138303_j64415919505539_1_alg».proof.Defs
import proofs.«138303_j64415919505539_1_alg».proof.Proof.Gen.Kernel
import proofs.«138303_j64415919505539_1_alg».proof.Proof.Gen.Kernel.Skeleton
import proofs.«138303_j64415919505539_1_alg».proof.Proof.Gen.Kernel.Launch
import proofs.«138303_j64415919505539_1_alg».proof.Proof.Gen.Kernel.Points
import proofs.«138303_j64415919505539_1_alg».proof.Proof.Gen.Kernel.Frame
import proofs.«138303_j64415919505539_1_alg».proof.Proof.Gen.KernelIdeal
import proofs.«138303_j64415919505539_1_alg».proof.Proof.Gen.KernelIdeal.Skeleton
import proofs.«138303_j64415919505539_1_alg».proof.Proof.Gen.KernelIdeal.Launch
import proofs.«138303_j64415919505539_1_alg».proof.Proof.Gen.KernelIdeal.Points
import proofs.«138303_j64415919505539_1_alg».proof.Proof.Gen.KernelIdeal.Frame
import proofs.«138303_j64415919505539_1_alg».proof.Proof.Gen.ReferenceIdeal
import proofs.«138303_j64415919505539_1_alg».proof.Proof.Gen.Pre_finite_inputs
import proofs.«138303_j64415919505539_1_alg».proof.Proof.Gen.KernelIdeal.Value
import proofs.«138303_j64415919505539_1_alg».proof.Proof.Gen.ReferenceIdeal.Run
import proofs.«138303_j64415919505539_1_alg».proof.Proof.Gen.ReferenceIdeal.Read
import proofs.«138303_j64415919505539_1_alg».proof.Proof.KernelFold
import proofs.«138303_j64415919505539_1_alg».proof.Proof.RefCost
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the cost matrix of the same two arrays: the kernel's over the flattened arrays the region
    finds, which are the reshapes of the arguments; the reference's over its own reshapes of arguments that agree. -/
theorem algebraic : Cert.algebraic_KernelIdeal_ReferenceIdeal := by
  intro m ρ m' ρ' _ hagree
  refine ⟨fun c => Cert.KernelIdeal.Fold.costArray m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq]
  funext i
  obtain ⟨b, p, g, rfl⟩ : ∃ (b : Fin 4) (p : Fin 100) (g : Fin 20), i = ix3 b p g := ⟨i 0, i 1, i 2, eq_ix3 i⟩
  rw [Cert.ReferenceIdeal.RefCost.result_eq, (hagree c).1, (hagree c).2]
  show _ = Cert.Cost.cost (Cert.KernelIdeal.Fold.XA m c) (Cert.KernelIdeal.Fold.TA m c) b p g
  rw [Cert.KernelIdeal.Fold.XA_eq, Cert.KernelIdeal.Fold.TA_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
